-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216x3 : Shape := ⟨2, ![16777216, 3]⟩
abbrev S16777216 : Shape := ⟨1, ![16777216]⟩
abbrev S_ : Shape := ⟨0, ![]⟩

class Facts : Prop where
  bcast_S_S16777216x3 : S_.BroadcastsInDim S16777216x3 (![] : Fin 0 → Fin S16777216x3.rank)
  reducesTo_S16777216x3_S_d0_1 : S16777216x3.ReducesTo [0, 1] S_
  h_S_ : 0 < S_.numel

variable [Facts]

def fn {F : FTy → Type} [FloatOps F] (main_arg0 : FVec F S16777216x3 .f32) (main_arg1 : IVec S16777216 32) (main_arg2 : IVec S16777216 32) (main_arg3 : IVec S16777216 32) : IVec S_ 1 :=
  let main_v0 : FVec F S16777216x3 .f32 := Host.absf main_arg0
  let main_cst : FVec F S_ .f32 := constant S_ .f32 0x7F800000#32
  let main_v1 : FVec F S16777216x3 .f32 := broadcastInDim S16777216x3 ![] bcast_S_S16777216x3 main_cst
  let main_v2 : IVec S16777216x3 1 := cmpf .olt main_v0 main_v1
  let main_c : IVec S_ 1 := constantI S_ 1 1#1
  let main_v3 : IVec S_ 1 := (fun x v => Host.reduce IntOp.andi x v reducesTo_S16777216x3_S_d0_1 h_S_) main_v2 main_c
  main_v3
-- ==== Kernel.lean ====
abbrev S16777216x3 : Shape := ⟨2, ![16777216, 3]⟩
abbrev S16777216 : Shape := ⟨1, ![16777216]⟩
abbrev S16777216x1 : Shape := ⟨2, ![16777216, 1]⟩
abbrev S16777216x2 : Shape := ⟨2, ![16777216, 2]⟩
abbrev S4096x3 : Shape := ⟨2, ![4096, 3]⟩
abbrev S4096x1 : Shape := ⟨2, ![4096, 1]⟩
abbrev S4096x2 : Shape := ⟨2, ![4096, 2]⟩
abbrev S4096 : Shape := ⟨1, ![4096]⟩
abbrev S_ : Shape := ⟨0, ![]⟩
abbrev S262144x2 : Shape := ⟨2, ![262144, 2]⟩
abbrev S262144x3 : Shape := ⟨2, ![262144, 3]⟩
abbrev S2048x2 : Shape := ⟨2, ![2048, 2]⟩
abbrev S2048x3 : Shape := ⟨2, ![2048, 3]⟩
abbrev S2048x1 : Shape := ⟨2, ![2048, 1]⟩

abbrev nBuf : Space → Nat
  | .hbm => 20
  | .vmem => 16
  | .smem => 0
  | _ => 0

abbrev bufTy : (tb : Table) → Fin (tcTables nBuf tb) → BufTy
  | .hbm, ⟨0, _⟩ => ⟨S16777216x3, .f32⟩
  | .hbm, ⟨1, _⟩ => ⟨S16777216, .i32⟩
  | .hbm, ⟨2, _⟩ => ⟨S16777216, .i32⟩
  | .hbm, ⟨3, _⟩ => ⟨S16777216, .i32⟩
  | .hbm, ⟨4, _⟩ => ⟨S16777216x1, .i32⟩
  | .hbm, ⟨5, _⟩ => ⟨S16777216x2, .f32⟩
  | .hbm, ⟨6, _⟩ => ⟨S16777216x2, .f32⟩
  | .hbm, ⟨7, _⟩ => ⟨S_, .f32⟩
  | .hbm, ⟨8, _⟩ => ⟨S262144x2, .f32⟩
  | .hbm, ⟨9, _⟩ => ⟨S16777216x1, .i32⟩
  | .hbm, ⟨10, _⟩ => ⟨S262144x2, .f32⟩
  | .hbm, ⟨11, _⟩ => ⟨S_, .f32⟩
  | .hbm, ⟨12, _⟩ => ⟨S262144x2, .f32⟩
  | .hbm, ⟨13, _⟩ => ⟨S16777216x1, .i32⟩
  | .hbm, ⟨14, _⟩ => ⟨S262144x2, .f32⟩
  | .hbm, ⟨15, _⟩ => ⟨S_, .f32⟩
  | .hbm, ⟨16, _⟩ => ⟨S262144x3, .f32⟩
  | .hbm, ⟨17, _⟩ => ⟨S16777216x1, .i32⟩
  | .hbm, ⟨18, _⟩ => ⟨S262144x3, .f32⟩
  | .hbm, ⟨19, _⟩ => ⟨S262144x2, .f32⟩
  | .local _ .vmem, ⟨0, _⟩ => ⟨S4096x3, .f32⟩
  | .local _ .vmem, ⟨1, _⟩ => ⟨S4096x3, .f32⟩
  | .local _ .vmem, ⟨2, _⟩ => ⟨S4096x1, .i32⟩
  | .local _ .vmem, ⟨3, _⟩ => ⟨S4096x1, .i32⟩
  | .local _ .vmem, ⟨4, _⟩ => ⟨S4096x2, .f32⟩
  | .local _ .vmem, ⟨5, _⟩ => ⟨S4096x2, .f32⟩
  | .local _ .vmem, ⟨6, _⟩ => ⟨S4096x2, .f32⟩
  | .local _ .vmem, ⟨7, _⟩ => ⟨S4096x2, .f32⟩
  | .local _ .vmem, ⟨8, _⟩ => ⟨S2048x2, .f32⟩
  | .local _ .vmem, ⟨9, _⟩ => ⟨S2048x2, .f32⟩
  | .local _ .vmem, ⟨10, _⟩ => ⟨S2048x2, .f32⟩
  | .local _ .vmem, ⟨11, _⟩ => ⟨S2048x2, .f32⟩
  | .local _ .vmem, ⟨12, _⟩ => ⟨S2048x3, .f32⟩
  | .local _ .vmem, ⟨13, _⟩ => ⟨S2048x3, .f32⟩
  | .local _ .vmem, ⟨14, _⟩ => ⟨S2048x2, .f32⟩
  | .local _ .vmem, ⟨15, _⟩ => ⟨S2048x2, .f32⟩
  | _, _ => ⟨S16777216x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![4096], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x3 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x2 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S16777216_S16777216x1 : S16777216.ShapeCasts S16777216x1
  inb_S4096x3_S4096x3_0_0 : ∀ a, (![0, 0] : Fin 2 → Nat) a + S4096x3.size a ≤ S4096x3.size a
  h_S4096x3 : 0 < S4096x3.numel
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  reduces_S4096x3_S4096 : S4096x3.Reduces [1] S4096
  shapeCasts_S4096_S4096x1 : S4096.ShapeCasts S4096x1
  inb_S4096x2_S4096x1_0_0 : ∀ a, (![0, 0] : Fin 2 → Nat) a + S4096x1.size a ≤ S4096x2.size a
  inb_S4096x2_S4096x1_0_1 : ∀ a, (![0, 1] : Fin 2 → Nat) a + S4096x1.size a ≤ S4096x2.size a
  natLt_1_32 : 1 < 32
  bcast_S_S262144x2 : S_.BroadcastsInDim S262144x2 (![] : Fin 0 → Fin S262144x2.rank)
  bcast_S16777216_S16777216x1_0 : S16777216.BroadcastsInDim S16777216x1 (![0] : Fin 1 → Fin S16777216x1.rank)
  bcast_S_S262144x3 : S_.BroadcastsInDim S262144x3 (![] : Fin 0 → Fin S262144x3.rank)
  inb_S2048x2_S2048x1_0_0 : ∀ a, (![0, 0] : Fin 2 → Nat) a + S2048x1.size a ≤ S2048x2.size a
  h_S2048x1 : 0 < S2048x1.numel
  shapeCasts_S2048x1_S2048x1 : S2048x1.ShapeCasts S2048x1
  inb_S2048x2_S2048x1_0_1 : ∀ a, (![0, 1] : Fin 2 → Nat) a + S2048x1.size a ≤ S2048x2.size a
  inb_S2048x3_S2048x1_0_0 : ∀ a, (![0, 0] : Fin 2 → Nat) a + S2048x1.size a ≤ S2048x3.size a
  inb_S2048x3_S2048x1_0_1 : ∀ a, (![0, 1] : Fin 2 → Nat) a + S2048x1.size a ≤ S2048x3.size a
  inb_S2048x3_S2048x1_0_2 : ∀ a, (![0, 2] : Fin 2 → Nat) a + S2048x1.size a ≤ S2048x3.size a
  scatter_S262144x2_S16777216x1_S16777216x2_1_0_0_1_wf : ScatterDims.WF S262144x2 S16777216x1 S16777216x2 [1] [0] [0] 1
  scatter_S262144x3_S16777216x1_S16777216x3_1_0_0_1_wf : ScatterDims.WF S262144x3 S16777216x1 S16777216x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x3.size a ≤ S16777216x3.size a
  hwx0_0 : ∀ i : grid0.Coords, EltTy.bits .f32 = 32 ∨ (Rect.block (s := S16777216x3) S4096x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S16777216x1.size a
  hwx0_1 : ∀ i : grid0.Coords, EltTy.bits .i32 = 32 ∨ (Rect.block (s := S16777216x1) S4096x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x2.size a ≤ S16777216x2.size a
  hwx0_2 : ∀ i : grid0.Coords, EltTy.bits .f32 = 32 ∨ (Rect.block (s := S16777216x2) S4096x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x2.size a ≤ S16777216x2.size a
  hwx0_3 : ∀ i : grid0.Coords, EltTy.bits .f32 = 32 ∨ (Rect.block (s := S16777216x2) S4096x2.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x2.size a ≤ S262144x2.size a
  hwx1_0 : ∀ i : grid1.Coords, EltTy.bits .f32 = 32 ∨ (Rect.block (s := S262144x2) S2048x2.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x2.size a ≤ S262144x2.size a
  hwx1_1 : ∀ i : grid1.Coords, EltTy.bits .f32 = 32 ∨ (Rect.block (s := S262144x2) S2048x2.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x3.size a ≤ S262144x3.size a
  hwx1_2 : ∀ i : grid1.Coords, EltTy.bits .f32 = 32 ∨ (Rect.block (s := S262144x3) S2048x3.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x2.size a ≤ S262144x2.size a
  hwx1_3 : ∀ i : grid1.Coords, EltTy.bits .f32 = 32 ∨ (Rect.block (s := S262144x2) S2048x2.size (cc1_transform_3 i) (hinb1_3 i)).WholeWords (EltTy.packing .f32)

variable [Facts₀]

def scatter_S262144x2_S16777216x1_S16777216x2_1_0_0_1 : ScatterDims S262144x2 S16777216x1 S16777216x2 where
  updateWindowDims := [1]
  insertedWindowDims := [0]
  scatterDimsToOperandDims := [0]
  indexVectorDim := 1
  wf := scatter_S262144x2_S16777216x1_S16777216x2_1_0_0_1_wf
def scatter_S262144x3_S16777216x1_S16777216x3_1_0_0_1 : ScatterDims S262144x3 S16777216x1 S16777216x3 where
  updateWindowDims := [1]
  insertedWindowDims := [0]
  scatterDimsToOperandDims := [0]
  indexVectorDim := 1
  wf := scatter_S262144x3_S16777216x1_S16777216x3_1_0_0_1_wf

abbrev win0_0 : Pipeline.Window sig grid0 :=
  Pipeline.Window.ofSpec (Memref.whole main_arg0) S4096x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S4096x2.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S4096x2.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S2048x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S2048x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S2048x3.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S2048x2.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16777216x3 : Shape := ⟨2, ![16777216, 3]⟩
abbrev S16777216 : Shape := ⟨1, ![16777216]⟩
abbrev S_ : Shape := ⟨0, ![]⟩
abbrev S262144 : Shape := ⟨1, ![262144]⟩
abbrev S16777216x1 : Shape := ⟨2, ![16777216, 1]⟩
abbrev S262144x3 : Shape := ⟨2, ![262144, 3]⟩
abbrev S262144x1 : Shape := ⟨2, ![262144, 1]⟩
abbrev S262144x2 : Shape := ⟨2, ![262144, 2]⟩

abbrev nBuf : Space → Nat
  | .hbm => 95
  | .vmem => 0
  | .smem => 0
  | _ => 0

abbrev bufTy : (tb : Table) → Fin (tcTables nBuf tb) → BufTy
  | .hbm, ⟨0, _⟩ => ⟨S16777216x3, .f32⟩
  | .hbm, ⟨1, _⟩ => ⟨S16777216, .i32⟩
  | .hbm, ⟨2, _⟩ => ⟨S16777216, .i32⟩
  | .hbm, ⟨3, _⟩ => ⟨S16777216, .i32⟩
  | .hbm, ⟨4, _⟩ => ⟨S_, .f32⟩
  | .hbm, ⟨5, _⟩ => ⟨S16777216, .f32⟩
  | .hbm, ⟨6, _⟩ => ⟨S_, .f32⟩
  | .hbm, ⟨7, _⟩ => ⟨S262144, .f32⟩
  | .hbm, ⟨8, _⟩ => ⟨S16777216x1, .i32⟩
  | .hbm, ⟨9, _⟩ => ⟨S262144, .f32⟩
  | .hbm, ⟨10, _⟩ => ⟨S_, .f32⟩
  | .hbm, ⟨11, _⟩ => ⟨S262144, .f32⟩
  | .hbm, ⟨12, _⟩ => ⟨S262144, .f32⟩
  | .hbm, ⟨13, _⟩ => ⟨S_, .f32⟩
  | .hbm, ⟨14, _⟩ => ⟨S16777216, .f32⟩
  | .hbm, ⟨15, _⟩ => ⟨S_, .f32⟩
  | .hbm, ⟨16, _⟩ => ⟨S262144, .f32⟩
  | .hbm, ⟨17, _⟩ => ⟨S16777216x1, .i32⟩
  | .hbm, ⟨18, _⟩ => ⟨S262144, .f32⟩
  | .hbm, ⟨19, _⟩ => ⟨S262144, .f32⟩
  | .hbm, ⟨20, _⟩ => ⟨S_, .f32⟩
  | .hbm, ⟨21, _⟩ => ⟨S262144x3, .f32⟩
  | .hbm, ⟨22, _⟩ => ⟨S16777216x1, .i32⟩
  | .hbm, ⟨23, _⟩ => ⟨S262144x3, .f32⟩
  | .hbm, ⟨24, _⟩ => ⟨S_, .i32⟩
  | .hbm, ⟨25, _⟩ => ⟨S16777216, .i32⟩
  | .hbm, ⟨26, _⟩ => ⟨S16777216, .i1⟩
  | .hbm, ⟨27, _⟩ => ⟨S16777216, .f32⟩
  | .hbm, ⟨28, _⟩ => ⟨S_, .f32⟩
  | .hbm, ⟨29, _⟩ => ⟨S262144, .f32⟩
  | .hbm, ⟨30, _⟩ => ⟨S16777216x1, .i32⟩
  | .hbm, ⟨31, _⟩ => ⟨S262144, .f32⟩
  | .hbm, ⟨32, _⟩ => ⟨S_, .i32⟩
  | .hbm, ⟨33, _⟩ => ⟨S16777216, .i32⟩
  | .hbm, ⟨34, _⟩ => ⟨S16777216, .i1⟩
  | .hbm, ⟨35, _⟩ => ⟨S16777216, .f32⟩
  | .hbm, ⟨36, _⟩ => ⟨S_, .f32⟩
  | .hbm, ⟨37, _⟩ => ⟨S262144, .f32⟩
  | .hbm, ⟨38, _⟩ => ⟨S16777216x1, .i32⟩
  | .hbm, ⟨39, _⟩ => ⟨S262144, .f32⟩
  | .hbm, ⟨40, _⟩ => ⟨S_, .f32⟩
  | .hbm, ⟨41, _⟩ => ⟨S262144, .f32⟩
  | .hbm, ⟨42, _⟩ => ⟨S262144, .i1⟩
  | .hbm, ⟨43, _⟩ => ⟨S_, .f32⟩
  | .hbm, ⟨44, _⟩ => ⟨S_, .f32⟩
  | .hbm, ⟨45, _⟩ => ⟨S262144, .f32⟩
  | .hbm, ⟨46, _⟩ => ⟨S262144, .f32⟩
  | .hbm, ⟨47, _⟩ => ⟨S_, .f32⟩
  | .hbm, ⟨48, _⟩ => ⟨S_, .f32⟩
  | .hbm, ⟨49, _⟩ => ⟨S262144, .f32⟩
  | .hbm, ⟨50, _⟩ => ⟨S262144, .f32⟩
  | .hbm, ⟨51, _⟩ => ⟨S262144x1, .f32⟩
  | .hbm, ⟨52, _⟩ => ⟨S262144, .f32⟩
  | .hbm, ⟨53, _⟩ => ⟨S262144, .f32⟩
  | .hbm, ⟨54, _⟩ => ⟨S262144, .f32⟩
  | .hbm, ⟨55, _⟩ => ⟨S_, .f32⟩
  | .hbm, ⟨56, _⟩ => ⟨S262144, .f32⟩
  | .hbm, ⟨57, _⟩ => ⟨S262144, .f32⟩
  | .hbm, ⟨58, _⟩ => ⟨S262144, .f32⟩
  | .hbm, ⟨59, _⟩ => ⟨S_, .f32⟩
  | .hbm, ⟨60, _⟩ => ⟨S262144, .f32⟩
  | .hbm, ⟨61, _⟩ => ⟨S262144, .f32⟩
  | .hbm, ⟨62, _⟩ => ⟨S262144, .f32⟩
  | .hbm, ⟨63, _⟩ => ⟨S262144, .f32⟩
  | .hbm, ⟨64, _⟩ => ⟨S_, .f32⟩
  | .hbm, ⟨65, _⟩ => ⟨S262144, .f32⟩
  | .hbm, ⟨66, _⟩ => ⟨S262144, .f32⟩
  | .hbm, ⟨67, _⟩ => ⟨S_, .f32⟩
  | .hbm, ⟨68, _⟩ => ⟨S262144, .f32⟩
  | .hbm, ⟨69, _⟩ => ⟨S262144, .f32⟩
  | .hbm, ⟨70, _⟩ => ⟨S262144x1, .f32⟩
  | .hbm, ⟨71, _⟩ => ⟨S262144, .f32⟩
  | .hbm, ⟨72, _⟩ => ⟨S262144x1, .f32⟩
  | .hbm, ⟨73, _⟩ => ⟨S262144, .f32⟩
  | .hbm, ⟨74, _⟩ => ⟨S262144, .f32⟩
  | .hbm, ⟨75, _⟩ => ⟨S262144, .f32⟩
  | .hbm, ⟨76, _⟩ => ⟨S262144, .f32⟩
  | .hbm, ⟨77, _⟩ => ⟨S_, .f32⟩
  | .hbm, ⟨78, _⟩ => ⟨S262144, .f32⟩
  | .hbm, ⟨79, _⟩ => ⟨S262144, .f32⟩
  | .hbm, ⟨80, _⟩ => ⟨S262144, .f32⟩
  | .hbm, ⟨81, _⟩ => ⟨S_, .f32⟩
  | .hbm, ⟨82, _⟩ => ⟨S262144, .f32⟩
  | .hbm, ⟨83, _⟩ => ⟨S262144, .f32⟩
  | .hbm, ⟨84, _⟩ => ⟨S262144, .f32⟩
  | .hbm, ⟨85, _⟩ => ⟨S262144, .f32⟩
  | .hbm, ⟨86, _⟩ => ⟨S_, .f32⟩
  | .hbm, ⟨87, _⟩ => ⟨S262144, .f32⟩
  | .hbm, ⟨88, _⟩ => ⟨S262144, .f32⟩
  | .hbm, ⟨89, _⟩ => ⟨S_, .f32⟩
  | .hbm, ⟨90, _⟩ => ⟨S262144, .f32⟩
  | .hbm, ⟨91, _⟩ => ⟨S262144, .f32⟩
  | .hbm, ⟨92, _⟩ => ⟨S262144x1, .f32⟩
  | .hbm, ⟨93, _⟩ => ⟨S262144x1, .f32⟩
  | .hbm, ⟨94, _⟩ => ⟨S262144x2, .f32⟩
  | _, _ => ⟨S16777216x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_cst_3 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_4 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_cst_9 : Ref sig .tc := ⟨.hbm, 43, rfl⟩
abbrev main_call0_v0 : Ref sig .tc := ⟨.hbm, 44, rfl⟩
abbrev main_call0_v1 : Ref sig .tc := ⟨.hbm, 45, rfl⟩
abbrev main_v28 : Ref sig .tc := ⟨.hbm, 46, rfl⟩
abbrev main_cst_10 : Ref sig .tc := ⟨.hbm, 47, rfl⟩
abbrev main_call1_v0 : Ref sig .tc := ⟨.hbm, 48, rfl⟩
abbrev main_call1_v1 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_11 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_12 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_13 : Ref sig .tc := ⟨.hbm, 64, rfl⟩
abbrev main_v41 : Ref sig .tc := ⟨.hbm, 65, rfl⟩
abbrev main_v42 : Ref sig .tc := ⟨.hbm, 66, rfl⟩
abbrev main_cst_14 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_15 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_16 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_17 : Ref sig .tc := ⟨.hbm, 86, rfl⟩
abbrev main_v59 : Ref sig .tc := ⟨.hbm, 87, rfl⟩
abbrev main_v60 : Ref sig .tc := ⟨.hbm, 88, rfl⟩
abbrev main_cst_18 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)
  bcast_S_S262144 : S_.BroadcastsInDim S262144 (![] : Fin 0 → Fin S262144.rank)
  bcast_S16777216_S16777216x1_0 : S16777216.BroadcastsInDim S16777216x1 (![0] : Fin 1 → Fin S16777216x1.rank)
  reducesTo_S16777216x3_S16777216_d1 : S16777216x3.ReducesTo [1] S16777216
  h_S_ : 0 < S_.numel
  bcast_S_S262144x3 : S_.BroadcastsInDim S262144x3 (![] : Fin 0 → Fin S262144x3.rank)
  slices_S262144x3_S262144x1_0_0 : S262144x3.Slices ![0, 0] S262144x1
  shapeCasts_S262144x1_S262144 : S262144x1.ShapeCasts S262144
  slices_S262144x3_S262144x1_0_1 : S262144x3.Slices ![0, 1] S262144x1
  slices_S262144x3_S262144x1_0_2 : S262144x3.Slices ![0, 2] S262144x1
  bcast_S262144_S262144x1_0 : S262144.BroadcastsInDim S262144x1 (![0] : Fin 1 → Fin S262144x1.rank)
  concatenates_S262144x1_S262144x1_S262144x2_d1 : Shape.Concatenates [S262144x1, S262144x1] S262144x2 1
  scatter_S262144_S16777216x1_S16777216_n_0_0_1_wf : ScatterDims.WF S262144 S16777216x1 S16777216 [] [0] [0] 1
  scatter_S262144x3_S16777216x1_S16777216x3_1_0_0_1_wf : ScatterDims.WF S262144x3 S16777216x1 S16777216x3 [1] [0] [0] 1

variable [Facts₀]

def scatter_S262144_S16777216x1_S16777216_n_0_0_1 : ScatterDims S262144 S16777216x1 S16777216 where
  updateWindowDims := []
  insertedWindowDims := [0]
  scatterDimsToOperandDims := [0]
  indexVectorDim := 1
  wf := scatter_S262144_S16777216x1_S16777216_n_0_0_1_wf
def scatter_S262144x3_S16777216x1_S16777216x3_1_0_0_1 : ScatterDims S262144x3 S16777216x1 S16777216x3 where
  updateWindowDims := [1]
  insertedWindowDims := [0]
  scatterDimsToOperandDims := [0]
  indexVectorDim := 1
  wf := scatter_S262144x3_S16777216x1_S16777216x3_1_0_0_1_wf

class Facts : Prop extends Facts₀ where

variable [Facts]
-- ==== Proof.KernelRun.lean ====
/-
  The idealized kernel's run, with its result named.

  The program is two pipelined regions among two stretches of host operations. The generated frame follows the
  contents of every unscoped buffer through the four segments: `W0` at launch, `W1` after the label column is
  reshaped, `W2` after the feature region, `W3` after the three segment sums, `W4` after the combine region. Its
  closing step reads only the four arguments back out of `W4`. Here the same run is closed one buffer further:
  the result buffer also ends at what `W4` holds for it.
-/
import proofs.«101748_j6330781794350_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents `W4` and the four arguments end as launched. -/
theorem run : θ_run defs (onTc (τ := τ) (main (F := F))) ⟨m, fun _ => 0, ρ⟩ (fun r => ∀ c : Dev nD,
      r.2.mem ((c.tc : Thread nD τ).loc main_v11) = W4 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v11 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.Named

end
-- ==== Proof.LibKeepdims.lean ====
/-
  Small facts about reading a vector operation AT AN INDEX, over shapes with literal rank and any extents — the ones a
  kernel written with `keepdims=True` sums and trailing-axis broadcasts meets, and a 7 × 7 window flattened to 49 lanes:

  * a lane sum of a rank-3 vector, and a row sum of a rank-2 vector, as `Fin`-indexed sums (`laneSum3_apply`, `rowSum2_apply`);
  * the casts [a] → [a, 1] and [a, b] → [a, b, 1] (`cast_col_apply`, `cast_col3_apply`);
  * the broadcasts [a, 1] → [a, b] and [a, b, 1] → [a, b, c] (`bcast_col_apply`, `bcast_col3_apply`);
  * the reshapes between [a, b, 7, 7] and [a, b, 49] (`flatten77_apply`, `unflatten77_apply`);
  * the host's sum over the two trailing axes of [a, b, 7, 7] as the initial value plus the sum over the 49 row-major
    positions (`hostSum77_apply`).

  All at the ideal values where a sum is involved; the layout ones for any element type.
-/
import Idealize.ShloMosaic.PureOps.Ideal.Laws
import Idealize.ShloMosaic.Lib.Pipeline.Value
import Idealize.ShloMosaic.Lib.ValueIdx

noncomputable section

open scoped BigOperators

namespace Idealize.ShloMosaic.Keepdims

open Idealize.ShloMosaic Idealize.ShloMosaic.ValueIdx

/-! ## Sums -/

/-- A lane sum (over the last axis) of a rank-3 vector, at (a, b): the sum over the lane coordinate. -/
theorem laneSum3_apply {n0 n1 n2 : Nat} {φ : FTy} (v : FVec Ideal ⟨3, ![n0, n1, n2]⟩ φ) (acc : BitVec φ.bits)
    (h : (⟨3, ![n0, n1, n2]⟩ : Shape).Reduces [2] ⟨2, ![n0, n1]⟩) (hφ : FKind.Formats φ) (hacc : acc = FKind.add.neutral φ hφ)
    (a : Fin n0) (b : Fin n1) :
    multiReduction .add [2] ⟨2, ![n0, n1]⟩ v acc h hφ hacc (ix2 a b) = ∑ k : Fin n2, v (ix3 a b k) :=
  (Ideal.multiReduction_add_single v acc h hφ hacc (ix2 a b)).trans
    (Finset.sum_congr rfl fun k _ => congrArg v (funext fun d => Fin.ext (by
      match d with | ⟨0, _⟩ => rfl | ⟨1, _⟩ => rfl | ⟨2, _⟩ => rfl)))

/-- A sum over the second axis of a rank-2 vector, at a: the sum over the column coordinate. -/
theorem rowSum2_apply {n0 n1 : Nat} {φ : FTy} (v : FVec Ideal ⟨2, ![n0, n1]⟩ φ) (acc : BitVec φ.bits)
    (h : (⟨2, ![n0, n1]⟩ : Shape).Reduces [1] ⟨1, ![n0]⟩) (hφ : FKind.Formats φ) (hacc : acc = FKind.add.neutral φ hφ)
    (a : Fin n0) :
    multiReduction .add [1] ⟨1, ![n0]⟩ v acc h hφ hacc (ix1 a) = ∑ c : Fin n1, v (ix2 a c) :=
  (Ideal.multiReduction_add_single v acc h hφ hacc (ix1 a)).trans
    (Finset.sum_congr rfl fun k _ => congrArg v (funext fun d => Fin.ext (by
      match d with | ⟨0, _⟩ => rfl | ⟨1, _⟩ => rfl)))

/-! ## Keepdims casts and trailing-axis broadcasts -/

section Layout
variable {α : Type}

/-- [a] viewed [a, 1]: entry (i, 0) is entry i. -/
theorem cast_col_apply {a : Nat} (v : (⟨1, ![a]⟩ : Shape).Idx → α) (h : (⟨1, ![a]⟩ : Shape).ShapeCasts ⟨2, ![a, 1]⟩)
    (i : Fin a) (z : Fin 1) : shapeCast ⟨2, ![a, 1]⟩ v h (ix2 i z) = v (ix1 i) :=
  shapeCast_apply v h (ix2 i z) (ix1 i) (by
    rw [Shape.rowMajor_val_one, Shape.rowMajor_val_two]
    show i.val = i.val * 1 + z.val
    have := z.isLt; omega)

/-- [a, b] viewed [a, b, 1]: entry (i, j, 0) is entry (i, j). -/
theorem cast_col3_apply {a b : Nat} (v : (⟨2, ![a, b]⟩ : Shape).Idx → α) (h : (⟨2, ![a, b]⟩ : Shape).ShapeCasts ⟨3, ![a, b, 1]⟩)
    (i : Fin a) (j : Fin b) (z : Fin 1) : shapeCast ⟨3, ![a, b, 1]⟩ v h (ix3 i j z) = v (ix2 i j) :=
  shapeCast_apply v h (ix3 i j z) (ix2 i j) (by
    rw [Shape.rowMajor_val_two, Shape.rowMajor_val_three]
    show i.val * b + j.val = (i.val * b + j.val) * 1 + z.val
    have := z.isLt; omega)

/-- A column [a, 1] broadcast along a new second extent: entry (i, j) is the column's entry (i, 0). -/
theorem bcast_col_apply {a b : Nat} (u : (⟨2, ![a, 1]⟩ : Shape).Idx → α) (h : (⟨2, ![a, 1]⟩ : Shape).Broadcasts ⟨2, ![a, b]⟩)
    (i : Fin a) (j : Fin b) : broadcastTo ⟨2, ![a, b]⟩ u h (ix2 i j) = u (ix2 i 0) :=
  broadcastTo_apply u h (ix2 i j) (ix2 i 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl])

/-- A [a, b, 1] vector broadcast along a new last extent: entry (i, j, k) is entry (i, j, 0). -/
theorem bcast_col3_apply {a b c : Nat} (u : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ u h (ix3 i j k) = u (ix3 i j 0) :=
  broadcastTo_apply u h (ix3 i j k) (ix3 i j 0) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => show 0 = if (1 : Nat) = 1 then 0 else k.val; rw [if_pos rfl])

/-! ## A 7 × 7 window as 49 lanes -/

/-- Lane `k` of 49 as the row-major pair (k / 7, k % 7), and the pair's lane. -/
abbrev hi7 (k : Fin 49) : Fin 7 := ⟨k.val / 7, by have := k.isLt; omega⟩
abbrev lo7 (k : Fin 49) : Fin 7 := ⟨k.val % 7, Nat.mod_lt _ (by decide)⟩
abbrev lane7 (p q : Fin 7) : Fin 49 := ⟨7 * p.val + q.val, by have := p.isLt; have := q.isLt; omega⟩

/-- [a, b, 7, 7] reshaped to [a, b, 49]: lane k of (i, j) is entry (i, j, k / 7, k % 7). -/
theorem flatten77_apply {a b : Nat} (X : (⟨4, ![a, b, 7, 7]⟩ : Shape).Idx → α)
    (h : (⟨4, ![a, b, 7, 7]⟩ : Shape).ShapeCasts ⟨3, ![a, b, 49]⟩) (i : Fin a) (j : Fin b) (k : Fin 49) :
    shapeCast ⟨3, ![a, b, 49]⟩ X h (ix3 i j k) = X (ix4 i j (hi7 k) (lo7 k)) :=
  shapeCast_apply X h (ix3 i j k) (ix4 i j (hi7 k) (lo7 k)) (by
    rw [Shape.rowMajor_val_three, Shape.rowMajor_val_four]
    show ((i.val * b + j.val) * 7 + k.val / 7) * 7 + k.val % 7 = (i.val * b + j.val) * 49 + k.val
    omega)

/-- [a, b, 49] reshaped to [a, b, 7, 7]: entry (i, j, p, q) is lane 7p + q of (i, j). -/
theorem unflatten77_apply {a b : Nat} (A : (⟨3, ![a, b, 49]⟩ : Shape).Idx → α)
    (h : (⟨3, ![a, b, 49]⟩ : Shape).ShapeCasts ⟨4, ![a, b, 7, 7]⟩) (i : Fin a) (j : Fin b) (p q : Fin 7) :
    shapeCast ⟨4, ![a, b, 7, 7]⟩ A h (ix4 i j p q) = A (ix3 i j (lane7 p q)) :=
  shapeCast_apply A h (ix4 i j p q) (ix3 i j (lane7 p q)) (by
    rw [Shape.rowMajor_val_three, Shape.rowMajor_val_four]
    show (i.val * b + j.val) * 49 + (7 * p.val + q.val) = ((i.val * b + j.val) * 7 + p.val) * 7 + q.val
    omega)

end Layout

/-- The host's sum over the two trailing axes of a [a, b, 7, 7] array, at (i, j): the initial value plus the sum over the
    49 row-major positions. The indices that drop to (i, j) are exactly the (i, j, k / 7, k % 7). -/
theorem hostSum77_apply {a b : Nat} (h' : (⟨4, ![a, b, 7, 7]⟩ : Shape).ReducesTo [2, 3] ⟨2, ![a, b]⟩)
    (X : (⟨4, ![a, b, 7, 7]⟩ : Shape).Idx → EReal) (init : EReal) (i : Fin a) (j : Fin b) :
    Ideal.hostReduceAdd h' X init (ix2 i j) = init + ∑ k : Fin 49, X (ix4 i j (hi7 k) (lo7 k)) := by
  unfold Ideal.hostReduceAdd
  refine congrArg (init + ·) (Eq.symm ?_)
  refine Finset.sum_bij (fun k _ => ix4 i j (hi7 k) (lo7 k)) ?_ ?_ ?_ ?_
  · intro k _
    rw [Finset.mem_filter]
    refine ⟨Finset.mem_univ _, funext fun d => Fin.ext ?_⟩
    match d with
    | ⟨0, _⟩ => rfl
    | ⟨1, _⟩ => rfl
  · intro k _ k' _ e
    have e2 : k.val / 7 = k'.val / 7 := congrArg (fun x : (⟨4, ![a, b, 7, 7]⟩ : Shape).Idx => (x 2).val) e
    have e3 : k.val % 7 = k'.val % 7 := congrArg (fun x : (⟨4, ![a, b, 7, 7]⟩ : Shape).Idx => (x 3).val) e
    exact Fin.ext (by omega)
  · intro x hx
    rw [Finset.mem_filter] at hx
    have h0 : (x 0).val = i.val := congrArg (fun y : (⟨2, ![a, b]⟩ : Shape).Idx => (y 0).val) hx.2
    have h1 : (x 1).val = j.val := congrArg (fun y : (⟨2, ![a, b]⟩ : Shape).Idx => (y 1).val) hx.2
    have h2 : (x 2).val < 7 := (x 2).isLt
    have h3 : (x 3).val < 7 := (x 3).isLt
    refine ⟨⟨7 * (x 2).val + (x 3).val, by omega⟩, Finset.mem_univ _, funext fun d => Fin.ext ?_⟩
    match d with
    | ⟨0, _⟩ => exact h0.symm
    | ⟨1, _⟩ => exact h1.symm
    | ⟨2, _⟩ => show (7 * (x 2).val + (x 3).val) / 7 = (x 2).val; omega
    | ⟨3, _⟩ => show (7 * (x 2).val + (x 3).val) % 7 = (x 3).val; omega
  · intro k _; rfl

end Idealize.ShloMosaic.Keepdims

end
-- ==== Proof.LibSoftmaxRows.lean ====
/-
  A softmax along the rows of a matrix, read AT AN INDEX at the ideal values, for kernels and references that spell it the
  numerically careful way: subtract the row's maximum, exponentiate, divide by the row's sum, with both reductions kept as a
  column (`keepdims`) and broadcast back along the row.

  * `softmaxAt row init j`: the value — `exp (row j − M) / ∑ c, exp (row c − M)` with `M` the fold of `max` from `init`
    over the row;
  * `rowMax2_apply`: a `multi_reduction <maximumf>` over the second axis of a rank-2 vector, at a row, is that fold;
  * `hostLaneMax3_apply`: the host's one-operand reduce with a `maximum` body over the last axis of a rank-3 array, at
    (a, b), is the same fold over the lane coordinate;
  * `max_fold_max_self`: taking the maximum with the fold's own starting value once more changes nothing;
  * `softmaxRows_apply`: the whole keepdims chain of a kernel (maximum, cast to a column, broadcast, subtract, exponentiate,
    sum, cast, broadcast, divide) at (r, j) is `softmaxAt` of row r.

  Nothing here needs the entries to be finite: the two sides of a claim that both spell the softmax this way are the same
  function on the extended reals.
-/
import Idealize.ShloMosaic.PureOps.Ideal.Laws
import Idealize.ShloMosaic.Lib.Pipeline.Value
import Idealize.ShloMosaic.Lib.ValueIdx
import proofs.«101748_j6330781794350_2_alg».proof.Proof.LibKeepdims

noncomputable section

open scoped BigOperators

namespace Idealize.ShloMosaic.SoftmaxRows

open Idealize.ShloMosaic Idealize.ShloMosaic.ValueIdx

/-- The softmax of one row at position `j`, the row's maximum taken as a fold of `max` from `init`. -/
def softmaxAt {n : Nat} (row : Fin n → EReal) (init : EReal) (j : Fin n) : EReal :=
  Ideal.div (Ideal.exp (row j - (Finset.univ : Finset (Fin n)).fold max init row))
    (∑ c : Fin n, Ideal.exp (row c - (Finset.univ : Finset (Fin n)).fold max init row))

/-- The maximum of a fold of `max` with the value the fold started from is the fold. -/
theorem max_fold_max_self {ι : Type} (s : Finset ι) (b : EReal) (f : ι → EReal) :
    max b (s.fold max b f) = s.fold max b f :=
  max_eq_right ((Finset.le_fold_max b).mpr (Or.inl le_rfl))

/-- A maximum over the second axis of a rank-2 vector, at row a: the fold of `max` over the column coordinate. -/
theorem rowMax2_apply {n0 n1 : Nat} {φ : FTy} (v : FVec Ideal ⟨2, ![n0, n1]⟩ φ) (acc : BitVec φ.bits)
    (h : (⟨2, ![n0, n1]⟩ : Shape).Reduces [1] ⟨1, ![n0]⟩) (hφ : FKind.Formats φ) (hacc : acc = FKind.maximumf.neutral φ hφ)
    (a : Fin n0) :
    multiReduction .maximumf [1] ⟨1, ![n0]⟩ v acc h hφ hacc (ix1 a)
      = (Finset.univ : Finset (Fin n1)).fold max (Ideal.ofBits φ acc) (fun c => v (ix2 a c)) :=
  (Ideal.multiReduction_maximumf_single v acc h hφ hacc (ix1 a)).trans
    (Finset.fold_congr fun c _ => congrArg v (funext fun d => Fin.ext (by
      match d with | ⟨0, _⟩ => rfl | ⟨1, _⟩ => rfl)))

/-- The host's reduce with a `maximum` body over the last axis of a rank-3 array, at (a, b): the fold of `max` from the
    initial value's element over the lane coordinate. -/
theorem hostLaneMax3_apply {n0 n1 n2 : Nat} {φ : FTy} {u : Shape} (x : (⟨3, ![n0, n1, n2]⟩ : Shape).Idx → Ideal φ)
    (init : u.Idx → Ideal φ) (h' : (⟨3, ![n0, n1, n2]⟩ : Shape).ReducesTo [2] ⟨2, ![n0, n1]⟩)
    (h : (⟨3, ![n0, n1, n2]⟩ : Shape).Reduces [2] ⟨2, ![n0, n1]⟩) (hu : 0 < u.numel) (a : Fin n0) (b : Fin n1) :
    Host.reduce (FloatOps.maximumf (F := Ideal) (φ := φ)) x init h' hu (ix2 a b)
      = (Finset.univ : Finset (Fin n2)).fold max (init (Shape.Idx.first hu)) (fun c => x (ix3 a b c)) :=
  (Host.reduce_eq_fold_single (FloatOps.maximumf (F := Ideal) (φ := φ)) x init h' h hu (ix2 a b)).trans
    (Finset.fold_congr fun c _ => congrArg x (funext fun d => Fin.ext (by
      match d with | ⟨0, _⟩ => rfl | ⟨1, _⟩ => rfl | ⟨2, _⟩ => rfl)))

/-- The keepdims softmax chain of a kernel over the rows of `s`, at (r, j): the row's maximum and the row's sum of
    exponentials each reduced to a vector, cast to a column and broadcast back along the row. -/
theorem softmaxRows_apply {n0 n1 : Nat} (s : FVec Ideal ⟨2, ![n0, n1]⟩ .f32) (accM accS : BitVec 32)
    (hr : (⟨2, ![n0, n1]⟩ : Shape).Reduces [1] ⟨1, ![n0]⟩) (hc : (⟨1, ![n0]⟩ : Shape).ShapeCasts ⟨2, ![n0, 1]⟩)
    (hb : (⟨2, ![n0, 1]⟩ : Shape).Broadcasts ⟨2, ![n0, n1]⟩) (hφ : FKind.Formats .f32)
    (hM : accM = FKind.maximumf.neutral .f32 hφ) (hS : accS = FKind.add.neutral .f32 hφ) (r : Fin n0) (j : Fin n1) :
    divf (exp (subf s (broadcastTo ⟨2, ![n0, n1]⟩ (shapeCast ⟨2, ![n0, 1]⟩ (multiReduction .maximumf [1] ⟨1, ![n0]⟩ s accM hr hφ hM) hc) hb)))
        (broadcastTo ⟨2, ![n0, n1]⟩ (shapeCast ⟨2, ![n0, 1]⟩ (multiReduction .add [1] ⟨1, ![n0]⟩
          (exp (subf s (broadcastTo ⟨2, ![n0, n1]⟩ (shapeCast ⟨2, ![n0, 1]⟩ (multiReduction .maximumf [1] ⟨1, ![n0]⟩ s accM hr hφ hM) hc) hb)))
          accS hr hφ hS) hc) hb) (ix2 r j)
      = softmaxAt (fun c => s (ix2 r c)) (Ideal.ofBits .f32 accM) j := by
  have hmax : ∀ c : Fin n1, broadcastTo ⟨2, ![n0, n1]⟩ (shapeCast ⟨2, ![n0, 1]⟩ (multiReduction .maximumf [1] ⟨1, ![n0]⟩ s accM hr hφ hM) hc) hb (ix2 r c)
      = (Finset.univ : Finset (Fin n1)).fold max (Ideal.ofBits .f32 accM) (fun c => s (ix2 r c)) := fun c =>
    (Keepdims.bcast_col_apply _ hb r c).trans ((Keepdims.cast_col_apply _ hc r 0).trans (rowMax2_apply s accM hr hφ hM r))
  have hexp : ∀ c : Fin n1, exp (subf s (broadcastTo ⟨2, ![n0, n1]⟩ (shapeCast ⟨2, ![n0, 1]⟩ (multiReduction .maximumf [1] ⟨1, ![n0]⟩ s accM hr hφ hM) hc) hb)) (ix2 r c)
      = Ideal.exp (s (ix2 r c) - (Finset.univ : Finset (Fin n1)).fold max (Ideal.ofBits .f32 accM) (fun c => s (ix2 r c))) := fun c =>
    congrArg (fun m => Ideal.exp (s (ix2 r c) - m)) (hmax c)
  have hsum : broadcastTo ⟨2, ![n0, n1]⟩ (shapeCast ⟨2, ![n0, 1]⟩ (multiReduction .add [1] ⟨1, ![n0]⟩
          (exp (subf s (broadcastTo ⟨2, ![n0, n1]⟩ (shapeCast ⟨2, ![n0, 1]⟩ (multiReduction .maximumf [1] ⟨1, ![n0]⟩ s accM hr hφ hM) hc) hb)))
          accS hr hφ hS) hc) hb (ix2 r j)
      = ∑ c : Fin n1, Ideal.exp (s (ix2 r c) - (Finset.univ : Finset (Fin n1)).fold max (Ideal.ofBits .f32 accM) (fun c => s (ix2 r c))) :=
    (Keepdims.bcast_col_apply _ hb r j).trans ((Keepdims.cast_col_apply _ hc r 0).trans
      ((Keepdims.rowSum2_apply _ accS hr hφ hS r).trans (Finset.sum_congr rfl fun c _ => hexp c)))
  show Ideal.div _ _ = _
  unfold softmaxAt
  exact congrArg₂ Ideal.div (hexp j) hsum

end Idealize.ShloMosaic.SoftmaxRows

end
-- ==== Proof.FeatBlocks.lean ====
/-
  The feature region: the two arrays it leaves, as functions of the arrays it reads

  The region walks the 16777216 rows in 4096 blocks of 4096 rows. At a block it reads the block's rows of the logits
  (4096 × 3) and of the label column (4096 × 1) and writes two 4096 × 2 blocks, each as two column stores:
    first array:  column 0 holds 1, column 1 the largest of the row's three logits (a fold of `max` from −∞);
    second array: column 0 holds the 0/1 value of "the label is 4", column 1 that of "the label is 1", each the
                  comparison bit widened to a 32-bit word and read as a signed integer.
  A block's two stores tile it, so what the block holds is one function of the block index; block `t` sits at rows
  `4096 t … 4096 t + 4095` of every array, so that function is the restriction of one function of the whole arrays; and
  the 4096 blocks cover the rows, so each output array ends holding that function of the input arrays.
-/
import proofs.«101748_j6330781794350_2_alg».proof.Proof.Gen.KernelIdeal.Frame
import proofs.«101748_j6330781794350_2_alg».proof.Proof.LibKeepdims
import proofs.«101748_j6330781794350_2_alg».proof.Proof.LibSoftmaxRows
import Idealize.ShloMosaic.Lib.Pipeline.Value
import Idealize.ShloMosaic.Lib.ValueIdx

set_option maxRecDepth 16384

noncomputable section

namespace Cert.KernelIdeal.Feat

open Cert.KernelIdeal Cert.KernelIdeal.Gen
open Idealize.ShloMosaic Idealize.ShloMosaic.TcCoe Idealize.SL.Sem Idealize.ShloMosaic.ValueIdx
open Idealize.ShloMosaic.Pipeline (Dat)

/-! ## The payloads at an index -/

/-- The largest of the three entries of row `p` of a matrix with three columns, from −∞. -/
def rowFold {n : Nat} (x : (⟨2, ![n, 3]⟩ : Shape).Idx → EReal) (p : Fin n) : EReal :=
  (Finset.univ : Finset (Fin 3)).fold max (Ideal.ofBits .f32 0xFF800000#32) (fun c => x (ix2 p c))

/-- A comparison bit widened to a word and read as a signed integer. -/
def bitF (b : BitVec 1) : EReal := FloatOps.sitofp (F := Ideal) .f32 (b.setWidth 32)

theorem hz2 : (![0, 0] : Fin 2 → Nat) = fun _ => 0 := funext fun a => by fin_cases a <;> rfl

/-- The row-maximum column at row `p`. -/
theorem rowMaxPay_apply (x0 : Vec Ideal S4096x3 .f32) (p : Fin 4096) (z : Fin 1) :
    k0_pay2 x0 (ix2 p z) = rowFold x0 p := by
  unfold k0_pay2 rowFold
  exact (Keepdims.cast_col_apply _ _ p z).trans (SoftmaxRows.rowMax2_apply x0 _ _ _ _ p)

/-- The "label is 4" column at an index. -/
theorem label4Pay_apply (x1 : Vec Ideal S4096x1 .i32) (y : S4096x1.Idx) :
    k0_pay4 x1 y = bitF (IntOp.cmpi .eq (x1 y) 4#32) := by
  unfold k0_pay4 k0_pay1
  simp only [shapeCast_self]
  rfl

/-- The "label is 1" column at an index. -/
theorem label1Pay_apply (x1 : Vec Ideal S4096x1 .i32) (y : S4096x1.Idx) :
    k0_pay5 x1 y = bitF (IntOp.cmpi .eq (x1 y) 1#32) := by
  unfold k0_pay5 k0_pay1
  simp only [shapeCast_self]
  rfl

/-! ## A block of each output, as one function of the block index -/

/-- The first output's block: 1 in column 0, the row's maximum in column 1. -/
def feat1Block (x0 : Vec Ideal S4096x3 .f32) : Vec Ideal S4096x2 .f32 := fun y =>
  if (y 1).val = 0 then Ideal.ofBits .f32 0x3F800000#32 else rowFold x0 (y 0)

/-- The second output's block: the two label indicators. -/
def feat2Block (x1 : Vec Ideal S4096x1 .i32) : Vec Ideal S4096x2 .f32 := fun y =>
  if (y 1).val = 0 then bitF (IntOp.cmpi .eq (x1 (ix2 (y 0) 0)) 4#32)
  else bitF (IntOp.cmpi .eq (x1 (ix2 (y 0) 0)) 1#32)

/-- Column 0 of a 4096 × 2 block, as a rectangle, sends (p, 0) to (p, 0) … -/
theorem emb_col0 (x : S4096x1.Idx) : r0_2.emb x = ix2 (x 0) (0 : Fin 2) := by
  funext a; apply Fin.ext
  match a with
  | ⟨0, _⟩ => show 0 + 1 * (x 0).val = (x 0).val; omega
  | ⟨1, _⟩ => show 0 + 1 * (x 1).val = 0; have h : (x 1).val < 1 := (x 1).isLt; omega

/-- … and column 1 sends (p, 0) to (p, 1). -/
theorem emb_col1 (x : S4096x1.Idx) : r0_3.emb x = ix2 (x 0) (1 : Fin 2) := by
  funext a; apply Fin.ext
  match a with
  | ⟨0, _⟩ => show 0 + 1 * (x 0).val = (x 0).val; omega
  | ⟨1, _⟩ => show 1 + 1 * (x 1).val = 1; have h : (x 1).val < 1 := (x 1).isLt; omega

/-- (p, 0) and (p, z) are one index of a one-column block. -/
theorem col_eq (p : Fin 4096) (z : Fin 1) : (ix2 p z : S4096x1.Idx) = ix2 p 0 := by
  funext a; apply Fin.ext
  match a with
  | ⟨0, _⟩ => rfl
  | ⟨1, _⟩ => show z.val = 0; have := z.isLt; omega

/-- The first output's column stores, each the restriction of `feat1Block` to its column. -/
theorem feat1_col1 (x0 : Vec Ideal S4096x3 .f32) (x : S4096x1.Idx) : k0_pay2 x0 x = feat1Block x0 (r0_3.emb x) := by
  obtain ⟨p, z, rfl⟩ : ∃ (p : Fin 4096) (z : Fin 1), x = ix2 p z := ⟨x 0, x 1, eq_ix2 x⟩
  rw [emb_col1, rowMaxPay_apply]
  rfl
theorem feat1_col0 (x0 : Vec Ideal S4096x3 .f32) (x : S4096x1.Idx) :
    k0_pay3 (F := Ideal) x = feat1Block x0 (r0_2.emb x) := by
  rw [emb_col0]
  rfl

/-- The two stores of the first output tile its block: it holds `feat1Block` of the logits' block. -/
theorem out0_2_eq (x0 : Vec Ideal S4096x3 .f32) (x1 : Vec Ideal S4096x1 .i32) : out0_2 x0 x1 = feat1Block x0 := by
  unfold out0_2
  rw [View.ld_unit_zero (S := S4096x3) hz2]
  funext y
  refine View.canon_apply_of_pieces (feat1Block x0) _ (fun pc hpc x => ?_) y (cover0_2 _ _ y)
  rcases List.mem_cons.mp hpc with rfl | hpc
  · exact feat1_col1 x0 x
  · obtain rfl := List.mem_singleton.mp hpc
    exact feat1_col0 x0 x

/-- The second output's column stores, each the restriction of `feat2Block` to its column. -/
theorem feat2_col1 (x1 : Vec Ideal S4096x1 .i32) (x : S4096x1.Idx) : k0_pay5 x1 x = feat2Block x1 (r0_3.emb x) := by
  obtain ⟨p, z, rfl⟩ : ∃ (p : Fin 4096) (z : Fin 1), x = ix2 p z := ⟨x 0, x 1, eq_ix2 x⟩
  rw [emb_col1, label1Pay_apply, col_eq]
  rfl
theorem feat2_col0 (x1 : Vec Ideal S4096x1 .i32) (x : S4096x1.Idx) : k0_pay4 x1 x = feat2Block x1 (r0_2.emb x) := by
  obtain ⟨p, z, rfl⟩ : ∃ (p : Fin 4096) (z : Fin 1), x = ix2 p z := ⟨x 0, x 1, eq_ix2 x⟩
  rw [emb_col0, label4Pay_apply, col_eq]
  rfl

/-- The two stores of the second output tile its block: it holds `feat2Block` of the label column's block. -/
theorem out0_3_eq (x0 : Vec Ideal S4096x3 .f32) (x1 : Vec Ideal S4096x1 .i32) : out0_3 x0 x1 = feat2Block x1 := by
  unfold out0_3
  rw [View.ld_unit_zero (S := S4096x1) hz2]
  funext y
  refine View.canon_apply_of_pieces (feat2Block x1) _ (fun pc hpc x => ?_) y (cover0_3 _ _ y)
  rcases List.mem_cons.mp hpc with rfl | hpc
  · exact feat2_col1 x1 x
  · obtain rfl := List.mem_singleton.mp hpc
    exact feat2_col0 x1 x

/-! ## The whole arrays -/

/-- The first output array: 1 in column 0, each row's largest logit in column 1. -/
def feat1 (x : S16777216x3.Idx → EReal) : S16777216x2.Idx → EReal := fun i =>
  if (i 1).val = 0 then Ideal.ofBits .f32 0x3F800000#32 else rowFold x (i 0)

/-- The second output array: the indicators of label 4 and of label 1. -/
def feat2 (l : S16777216x1.Idx → BitVec 32) : S16777216x2.Idx → EReal := fun i =>
  if (i 1).val = 0 then bitF (IntOp.cmpi .eq (l (ix2 (i 0) 0)) 4#32)
  else bitF (IntOp.cmpi .eq (l (ix2 (i 0) 0)) 1#32)

/-- A block of the first output is the restriction of `feat1` to the block's rows. -/
theorem feat1Block_eq (A : S16777216x3.Idx → EReal) (x0 : Vec Ideal S4096x3 .f32) (j : S4096x2.Idx)
    (i : S16777216x2.Idx) (hrow : ∀ c : Fin 3, x0 (ix2 (j 0) c) = A (ix2 (i 0) c)) (hcol : (i 1).val = (j 1).val) :
    feat1Block x0 j = feat1 A i := by
  unfold feat1Block feat1 rowFold
  rw [hcol]
  by_cases h : (j 1).val = 0
  · rw [if_pos h, if_pos h]
  · rw [if_neg h, if_neg h]
    exact Finset.fold_congr fun c _ => hrow c

/-- A block of the second output is the restriction of `feat2` to the block's rows. -/
theorem feat2Block_eq (A : S16777216x1.Idx → BitVec 32) (x1 : Vec Ideal S4096x1 .i32) (j : S4096x2.Idx)
    (i : S16777216x2.Idx) (hrow : x1 (ix2 (j 0) 0) = A (ix2 (i 0) 0)) (hcol : (i 1).val = (j 1).val) :
    feat2Block x1 j = feat2 A i := by
  unfold feat2Block feat2
  rw [hcol, hrow]

end Cert.KernelIdeal.Feat

end
-- ==== Proof.Spec.lean ====
/-
  Per-segment gated averages: the result as one function of the arguments

  There are 16777216 rows and 262144 segments. Row `e` carries three logits `x (e, ·)`, a segment word `seg e`, a label
  word `lab e` and a second segment word `seg' e`. A row belongs to segment `s` under a list of segment words when its
  word, read as a signed integer, is `s`; a word outside `[0, 262144)` belongs to no segment.

  For segment `s`, over the rows of `s` under `seg`:
    `count s`   the sum of 1 over those rows,
    `avgMax s`  the sum of the rows' largest logit, divided by `max (count s) 1`,
    `colSum k s` the sum of logit `k`;
  and over the rows of `s` under `seg'`: `labelCount k s`, the number of rows whose label is `k` (each row adds the 0/1
  value of the comparison). The label counts are kept only where `count s < 6` and are replaced by 0 elsewhere. Then

    out (s, 0) = σ (10 · ((colSum 0 s + cnt1 s · avgMax s) − 5 · avgMax s))
    out (s, 1) = σ (10 · (((colSum 1 s + colSum 2 s) + cnt4 s · avgMax s) − 1 · avgMax s))

  with σ the logistic function. Every sum starts from the float zero pattern, as a scatter-add into a zero array does.
  All of it is stated on the extended reals, with each float literal kept as the value of its bit pattern.
-/
import Idealize.ShloMosaic.PureOps.Ideal
import Idealize.ShloMosaic.Lib.ValueIdx

noncomputable section

open scoped BigOperators

namespace Cert.SegAgg

open Idealize.ShloMosaic Idealize.ShloMosaic.ValueIdx

/-- The rows' logits, the per-row words, and the result, as index sets. -/
abbrev SX : Shape := ⟨2, ![16777216, 3]⟩
abbrev SW : Shape := ⟨1, ![16777216]⟩
abbrev SO : Shape := ⟨2, ![262144, 2]⟩

/-- The float literals of both programs, each the value of its pattern. -/
abbrev zero : EReal := Ideal.ofBits .f32 0x00000000#32
abbrev one : EReal := Ideal.ofBits .f32 0x3F800000#32
abbrev five : EReal := Ideal.ofBits .f32 0x40A00000#32
abbrev six : EReal := Ideal.ofBits .f32 0x40C00000#32
abbrev ten : EReal := Ideal.ofBits .f32 0x41200000#32
abbrev negInf : EReal := Ideal.ofBits .f32 0xFF800000#32

/-- The rows of segment `s` under the segment words `w`. -/
def rowsOf (w : SW.Idx → BitVec 32) (s : Fin 262144) : Finset (Fin 16777216) :=
  Finset.univ.filter fun e => (w (ix1 e)).toInt = (s.val : Int)

/-- The sum of a per-row value over the rows of segment `s`, from the float zero. -/
def segSum (w : SW.Idx → BitVec 32) (f : Fin 16777216 → EReal) (s : Fin 262144) : EReal :=
  zero + ∑ e ∈ rowsOf w s, f e

/-- The largest of a row's three logits: the fold of `max` from −∞. -/
def rowMax (x : SX.Idx → EReal) (e : Fin 16777216) : EReal :=
  (Finset.univ : Finset (Fin 3)).fold max negInf (fun c => x (ix2 e c))

/-- The 0/1 value of "row `e`'s label is `k`". -/
def isLabel (lab : SW.Idx → BitVec 32) (k : BitVec 32) (e : Fin 16777216) : EReal :=
  FloatOps.uitofp (F := Ideal) .f32 (IntOp.cmpi .eq (lab (ix1 e)) k)

def count (seg : SW.Idx → BitVec 32) (s : Fin 262144) : EReal := segSum seg (fun _ => one) s

def avgMax (x : SX.Idx → EReal) (seg : SW.Idx → BitVec 32) (s : Fin 262144) : EReal :=
  Ideal.div (segSum seg (rowMax x) s) (max (count seg s) one)

def colSum (x : SX.Idx → EReal) (seg : SW.Idx → BitVec 32) (k : Fin 3) (s : Fin 262144) : EReal :=
  segSum seg (fun e => x (ix2 e k)) s

def labelCount (lab seg' : SW.Idx → BitVec 32) (k : BitVec 32) (s : Fin 262144) : EReal :=
  segSum seg' (isLabel lab k) s

/-- A label count kept where the segment has fewer than six rows, 0 elsewhere. -/
def keptCount (cnt raw : EReal) : EReal :=
  Scalar.select (FloatOps.cmpf (F := Ideal) (φ := .f32) .olt cnt six) raw zero

/-- σ (10 · a). -/
def squash (a : EReal) : EReal := Ideal.logistic (ten * a)

/-- The two formulas of one segment, from its five sums and two label counts. -/
def first (cnt avg s0 c1 : EReal) : EReal := squash ((s0 + keptCount cnt c1 * avg) - five * avg)
def second (cnt avg s1 s2 c4 : EReal) : EReal := squash (((s1 + s2) + keptCount cnt c4 * avg) - one * avg)

/-- The result array. -/
def agg (x : SX.Idx → EReal) (seg lab seg' : SW.Idx → BitVec 32) : SO.Idx → EReal := fun i =>
  if (i 1).val = 0 then
    first (count seg (i 0)) (avgMax x seg (i 0)) (colSum x seg 0 (i 0)) (labelCount lab seg' 1#32 (i 0))
  else
    second (count seg (i 0)) (avgMax x seg (i 0)) (colSum x seg 1 (i 0)) (colSum x seg 2 (i 0))
      (labelCount lab seg' 4#32 (i 0))

end Cert.SegAgg

end
-- ==== Proof.CombineBlocks.lean ====
/-
  The combine region: the array it leaves, as a function of the three arrays it reads

  The region walks the 262144 segments in 128 blocks of 2048. At a block it reads the block's rows of the two
  per-segment feature sums (2048 × 2 each) and of the per-segment logit sums (2048 × 3), column by column, and writes one
  2048 × 2 block as two column stores. Everything between the loads and the stores is pointwise, so at segment `p`
  column 0 holds `first` and column 1 holds `second` (the two formulas of the specification) of
    the count            (first array, column 0),
    the average maximum  (first array, column 1, divided by `max count 1`),
    the logit sums       (third array, columns 0, 1, 2),
    the two label counts (second array, column 1 for label 1 and column 0 for label 4).
  The two stores tile the block, block `t` sits at rows `2048 t … 2048 t + 2047` of every array, and the 128 blocks cover
  the segments.
-/
import proofs.«101748_j6330781794350_2_alg».proof.Proof.Gen.KernelIdeal.Frame
import proofs.«101748_j6330781794350_2_alg».proof.Proof.Spec
import Idealize.ShloMosaic.Lib.Pipeline.Value
import Idealize.ShloMosaic.Lib.ValueIdx

set_option maxRecDepth 16384

noncomputable section

namespace Cert.KernelIdeal.Combine

open Cert.KernelIdeal Cert.KernelIdeal.Gen Cert.SegAgg
open Idealize.ShloMosaic Idealize.ShloMosaic.TcCoe Idealize.SL.Sem Idealize.ShloMosaic.ValueIdx
open Idealize.ShloMosaic.Pipeline (Dat)

/-! ## The formulas at one segment of an array of any number of rows -/

/-- The average maximum from a row of the first array. -/
def avgAt {n : Nat} (a : (⟨2, ![n, 2]⟩ : Shape).Idx → EReal) (p : Fin n) : EReal :=
  Ideal.div (a (ix2 p 1)) (max (a (ix2 p 0)) one)

/-- The result at segment `p`, column `q`, from row `p` of the three arrays. -/
def combineAt {n : Nat} (a b : (⟨2, ![n, 2]⟩ : Shape).Idx → EReal) (s : (⟨2, ![n, 3]⟩ : Shape).Idx → EReal)
    (p : Fin n) (q : Fin 2) : EReal :=
  if q.val = 0 then first (a (ix2 p 0)) (avgAt a p) (s (ix2 p 0)) (b (ix2 p 1))
  else second (a (ix2 p 0)) (avgAt a p) (s (ix2 p 1)) (s (ix2 p 2)) (b (ix2 p 0))

/-! ## The payloads at an index -/

/-- Column 0's payload, pointwise in the five columns it reads. -/
theorem firstPay_apply (v0 v2 v6 v8 : Vec Ideal S2048x1 .f32) (y : S2048x1.Idx) :
    k1_pay5 v0 v2 v6 v8 y = first (v0 y) (Ideal.div (v2 y) (max (v0 y) one)) (v8 y) (v6 y) := by
  unfold k1_pay5 k1_pay4 k1_pay3 k1_pay2
  simp only [shapeCast_self]
  rfl

/-- Column 1's payload, pointwise in the six columns it reads. -/
theorem secondPay_apply (v0 v2 v4 v10 v12 : Vec Ideal S2048x1 .f32) (y : S2048x1.Idx) :
    k1_pay1 (k1_pay6 v0 v2 v4 v10 v12) (Scalar.ofBits .f32 0x41200000#32) y
      = second (v0 y) (Ideal.div (v2 y) (max (v0 y) one)) (v10 y) (v12 y) (v4 y) := by
  unfold k1_pay1 k1_pay6 k1_pay4 k1_pay3 k1_pay2
  simp only [shapeCast_self]
  rfl

/-! ## The column rectangles -/

theorem idx_a0 (p : Fin 2048) (z : Fin 1) : r1_0.idx (ix2 p z) = ix2 p (0 : Fin 2) := by
  funext a; apply Fin.ext
  match a with
  | ⟨0, _⟩ => show 0 + 1 * p.val = p.val; omega
  | ⟨1, _⟩ => show 0 + 1 * z.val = 0; have := z.isLt; omega
theorem idx_a1 (p : Fin 2048) (z : Fin 1) : r1_1.idx (ix2 p z) = ix2 p (1 : Fin 2) := by
  funext a; apply Fin.ext
  match a with
  | ⟨0, _⟩ => show 0 + 1 * p.val = p.val; omega
  | ⟨1, _⟩ => show 1 + 1 * z.val = 1; have := z.isLt; omega
theorem idx_s0 (p : Fin 2048) (z : Fin 1) : r1_2.idx (ix2 p z) = ix2 p (0 : Fin 3) := by
  funext a; apply Fin.ext
  match a with
  | ⟨0, _⟩ => show 0 + 1 * p.val = p.val; omega
  | ⟨1, _⟩ => show 0 + 1 * z.val = 0; have := z.isLt; omega
theorem idx_s1 (p : Fin 2048) (z : Fin 1) : r1_3.idx (ix2 p z) = ix2 p (1 : Fin 3) := by
  funext a; apply Fin.ext
  match a with
  | ⟨0, _⟩ => show 0 + 1 * p.val = p.val; omega
  | ⟨1, _⟩ => show 1 + 1 * z.val = 1; have := z.isLt; omega
theorem idx_s2 (p : Fin 2048) (z : Fin 1) : r1_4.idx (ix2 p z) = ix2 p (2 : Fin 3) := by
  funext a; apply Fin.ext
  match a with
  | ⟨0, _⟩ => show 0 + 1 * p.val = p.val; omega
  | ⟨1, _⟩ => show 2 + 1 * z.val = 2; have := z.isLt; omega

/-! ## The block, as one function of the block index -/

def combineBlock (x0 x1 : Vec Ideal S2048x2 .f32) (x2 : Vec Ideal S2048x3 .f32) : Vec Ideal S2048x2 .f32 :=
  fun y => combineAt x0 x1 x2 (y 0) (y 1)

/-- The column stores, each the restriction of `combineBlock` to its column. -/
theorem comb_col0 (x0 x1 : Vec Ideal S2048x2 .f32) (x2 : Vec Ideal S2048x3 .f32) (x : S2048x1.Idx) :
    k1_pay5 (View.ld x0 r1_0) (View.ld x0 r1_1) (View.ld x1 r1_1) (View.ld x2 r1_2) x
      = combineBlock x0 x1 x2 (r1_0.emb x) := by
  obtain ⟨p, z, rfl⟩ : ∃ (p : Fin 2048) (z : Fin 1), x = ix2 p z := ⟨x 0, x 1, eq_ix2 x⟩
  rw [firstPay_apply]
  show first (x0 (r1_0.idx (ix2 p z))) (Ideal.div (x0 (r1_1.idx (ix2 p z))) (max (x0 (r1_0.idx (ix2 p z))) one))
      (x2 (r1_2.idx (ix2 p z))) (x1 (r1_1.idx (ix2 p z))) = combineBlock x0 x1 x2 (r1_0.idx (ix2 p z))
  rw [idx_a0, idx_a1, idx_s0]
  rfl
theorem comb_col1 (x0 x1 : Vec Ideal S2048x2 .f32) (x2 : Vec Ideal S2048x3 .f32) (x : S2048x1.Idx) :
    k1_pay1 (k1_pay6 (View.ld x0 r1_0) (View.ld x0 r1_1) (View.ld x1 r1_0) (View.ld x2 r1_3) (View.ld x2 r1_4))
        (Scalar.ofBits .f32 0x41200000#32) x
      = combineBlock x0 x1 x2 (r1_1.emb x) := by
  obtain ⟨p, z, rfl⟩ : ∃ (p : Fin 2048) (z : Fin 1), x = ix2 p z := ⟨x 0, x 1, eq_ix2 x⟩
  rw [secondPay_apply]
  show second (x0 (r1_0.idx (ix2 p z))) (Ideal.div (x0 (r1_1.idx (ix2 p z))) (max (x0 (r1_0.idx (ix2 p z))) one))
      (x2 (r1_3.idx (ix2 p z))) (x2 (r1_4.idx (ix2 p z))) (x1 (r1_0.idx (ix2 p z)))
      = combineBlock x0 x1 x2 (r1_1.idx (ix2 p z))
  rw [idx_a0, idx_a1, idx_s1, idx_s2]
  rfl

/-- The two stores tile the block: it holds `combineBlock` of the three input blocks. -/
theorem out1_3_eq (x0 x1 : Vec Ideal S2048x2 .f32) (x2 : Vec Ideal S2048x3 .f32) :
    out1_3 x0 x1 x2 = combineBlock x0 x1 x2 := by
  unfold out1_3
  funext y
  refine View.canon_apply_of_pieces (combineBlock x0 x1 x2) _ (fun pc hpc x => ?_) y (cover1_3 _ _ y)
  rcases List.mem_cons.mp hpc with rfl | hpc
  · exact comb_col1 x0 x1 x2 x
  · obtain rfl := List.mem_singleton.mp hpc
    exact comb_col0 x0 x1 x2 x

/-! ## The whole array -/

/-- The result array from the three per-segment arrays. -/
def combine (a b : S262144x2.Idx → EReal) (s : S262144x3.Idx → EReal) : S262144x2.Idx → EReal :=
  fun i => combineAt a b s (i 0) (i 1)

/-- A block of the result is the restriction of `combine` to the block's rows. -/
theorem combineBlock_eq (A B : S262144x2.Idx → EReal) (C : S262144x3.Idx → EReal)
    (x0 x1 : Vec Ideal S2048x2 .f32) (x2 : Vec Ideal S2048x3 .f32) (j : S2048x2.Idx) (i : S262144x2.Idx)
    (h0 : ∀ q : Fin 2, x0 (ix2 (j 0) q) = A (ix2 (i 0) q)) (h1 : ∀ q : Fin 2, x1 (ix2 (j 0) q) = B (ix2 (i 0) q))
    (h2 : ∀ k : Fin 3, x2 (ix2 (j 0) k) = C (ix2 (i 0) k)) (hcol : (i 1).val = (j 1).val) :
    combineBlock x0 x1 x2 j = combine A B C i := by
  unfold combineBlock combine combineAt avgAt
  rw [hcol, h0 0, h0 1, h1 0, h1 1, h2 0, h2 1, h2 2]

end Cert.KernelIdeal.Combine

end
-- ==== Proof.KernelValue.lean ====
/-
  The idealized kernel's result as one term of its arguments

  Both regions write back, at every grid point, the block of one whole-array function of the arrays they read, and their
  blocks cover the output arrays; so after the feature region the two feature arrays are `feat1` of the logits and `feat2`
  of the label column, and after the combine region the result is `combine` of the three segment sums. Between the
  regions the host scatter-adds the two feature arrays and the logits into zero arrays at the segment words. Reading
  the boundary contents back from the result buffer to the launch memory gives the result as one term of the four
  arguments (`value`).
-/
import proofs.«101748_j6330781794350_2_alg».proof.Proof.KernelRun
import proofs.«101748_j6330781794350_2_alg».proof.Proof.FeatBlocks
import proofs.«101748_j6330781794350_2_alg».proof.Proof.CombineBlocks

set_option maxRecDepth 16384

noncomputable section

namespace Cert.KernelIdeal.Whole

open Cert.KernelIdeal Cert.KernelIdeal.Gen
open Idealize.ShloMosaic Idealize.ShloMosaic.TcCoe Idealize.SL.Sem Idealize.ShloMosaic.ValueIdx
open Idealize.ShloMosaic.Pipeline (Dat)

section Regions
variable (V : (c : Dev nD) → (b : Ref sig .tc) → Buf (Elt Ideal) ((c : Thread nD τ).loc b))

/-! ## The feature region -/

/-- At point `t` every window of the feature region is at block row `t`, block column 0. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Point `t` writes back block `t` of `feat1` of the logits as the region finds them. -/
theorem flushed0_2 (c : Dev nD) (t : Fin cfg0.N) :
    (dat0 V c).flushed 2 t = ((cfg0.win 2).blk t).view.read (Elt Ideal) (Feat.feat1 (V c main_arg0)) := by
  show (cfg0.win 2).cut (grid0.coords t) ((dat0 V c).after 2 t) = _
  rw [after0_2, Feat.out0_2_eq]
  obtain ⟨e00, e01, e10, e11, e20, e21, e30, e31⟩ := idx0 t
  funext j
  show Feat.feat1Block (iblk0 V c 0 t) j = Feat.feat1 (V c main_arg0) (((cfg0.win 2).blk t).view.emb j)
  refine Feat.feat1Block_eq (V c main_arg0) (iblk0 V c 0 t) j _ (fun c' => ?_) ?_
  · show V c main_arg0 (((cfg0.win 0).blk t).view.emb (ix2 (j 0) c'))
        = V c main_arg0 (ix2 ((((cfg0.win 2).blk t).view.emb j) 0) c')
    refine congrArg _ (funext fun a => Fin.ext ?_)
    match a with
    | ⟨0, _⟩ => show win0_0.index t 0 * 4096 + 1 * (j 0).val = win0_2.index t 0 * 4096 + 1 * (j 0).val; omega
    | ⟨1, _⟩ => show win0_0.index t 1 * 3 + 1 * c'.val = c'.val; omega
  · show win0_2.index t 1 * 2 + 1 * (j 1).val = (j 1).val; omega

/-- Point `t` writes back block `t` of `feat2` of the label column as the region finds it. -/
theorem flushed0_3 (c : Dev nD) (t : Fin cfg0.N) :
    (dat0 V c).flushed 3 t = ((cfg0.win 3).blk t).view.read (Elt Ideal) (Feat.feat2 (V c main_v0)) := by
  show (cfg0.win 3).cut (grid0.coords t) ((dat0 V c).after 3 t) = _
  rw [after0_3, Feat.out0_3_eq]
  obtain ⟨e00, e01, e10, e11, e20, e21, e30, e31⟩ := idx0 t
  funext j
  show Feat.feat2Block (iblk0 V c 1 t) j = Feat.feat2 (V c main_v0) (((cfg0.win 3).blk t).view.emb j)
  refine Feat.feat2Block_eq (V c main_v0) (iblk0 V c 1 t) j _ ?_ ?_
  · show V c main_v0 (((cfg0.win 1).blk t).view.emb (ix2 (j 0) 0))
        = V c main_v0 (ix2 ((((cfg0.win 3).blk t).view.emb j) 0) 0)
    refine congrArg _ (funext fun a => Fin.ext ?_)
    match a with
    | ⟨0, _⟩ => show win0_1.index t 0 * 4096 + 1 * (j 0).val = win0_3.index t 0 * 4096 + 1 * (j 0).val; omega
    | ⟨1, _⟩ => show win0_1.index t 1 * 1 + 1 * 0 = 0; omega
  · show win0_3.index t 1 * 2 + 1 * (j 1).val = (j 1).val; omega

/-- An index is in point `t`'s block of an output iff each coordinate is in the block's range on its axis. -/
theorem mem_blk0_2 (t : Fin cfg0.N) (i : S16777216x2.Idx) :
    i ∈ ((cfg0.win 2).blk t).view.set ↔ ∀ a : Fin 2, win0_2.index t a * S4096x2.size a ≤ (i a).val
      ∧ (i a).val < win0_2.index t a * S4096x2.size a + S4096x2.size a := by
  show i ∈ ((View.whole main_v1_0).slice (win0_2.rect t)).set ↔ _
  rw [View.set_slice_whole, Rect.mem_set_unit]
  exact Iff.rfl
theorem mem_blk0_3 (t : Fin cfg0.N) (i : S16777216x2.Idx) :
    i ∈ ((cfg0.win 3).blk t).view.set ↔ ∀ a : Fin 2, win0_3.index t a * S4096x2.size a ≤ (i a).val
      ∧ (i a).val < win0_3.index t a * S4096x2.size a + S4096x2.size a := by
  show i ∈ ((View.whole main_v1_1).slice (win0_3.rect t)).set ↔ _
  rw [View.set_slice_whole, Rect.mem_set_unit]
  exact Iff.rfl

/-- Row `r` is in the block of point `r / 4096`: the 4096 blocks cover each output. -/
theorem covered0_2 (i : S16777216x2.Idx) :
    ∃ t : Fin cfg0.N, (cfg0.win 2).flush t = true ∧ i ∈ ((cfg0.win 2).blk t).view.set := by
  have hi0 : (i 0).val < 16777216 := (i 0).isLt
  have hi1 : (i 1).val < 2 := (i 1).isLt
  have hN : cfg0.N = 4096 := N_0
  have hlt : (i 0).val / 4096 < cfg0.N := by rw [hN]; omega
  obtain ⟨-, -, -, -, e20, e21, -, -⟩ := idx0 ⟨(i 0).val / 4096, hlt⟩
  refine ⟨⟨(i 0).val / 4096, hlt⟩, flush0_2 _, ?_⟩
  rw [mem_blk0_2]
  intro a
  match a with
  | ⟨0, _⟩ =>
    show win0_2.index ⟨(i 0).val / 4096, hlt⟩ 0 * 4096 ≤ (i 0).val
      ∧ (i 0).val < win0_2.index ⟨(i 0).val / 4096, hlt⟩ 0 * 4096 + 4096
    rw [e20]; show (i 0).val / 4096 * 4096 ≤ (i 0).val ∧ (i 0).val < (i 0).val / 4096 * 4096 + 4096; omega
  | ⟨1, _⟩ =>
    show win0_2.index ⟨(i 0).val / 4096, hlt⟩ 1 * 2 ≤ (i 1).val
      ∧ (i 1).val < win0_2.index ⟨(i 0).val / 4096, hlt⟩ 1 * 2 + 2
    rw [e21]; omega
theorem covered0_3 (i : S16777216x2.Idx) :
    ∃ t : Fin cfg0.N, (cfg0.win 3).flush t = true ∧ i ∈ ((cfg0.win 3).blk t).view.set := by
  have hi0 : (i 0).val < 16777216 := (i 0).isLt
  have hi1 : (i 1).val < 2 := (i 1).isLt
  have hN : cfg0.N = 4096 := N_0
  have hlt : (i 0).val / 4096 < cfg0.N := by rw [hN]; omega
  obtain ⟨-, -, -, -, -, -, e30, e31⟩ := idx0 ⟨(i 0).val / 4096, hlt⟩
  refine ⟨⟨(i 0).val / 4096, hlt⟩, flush0_3 _, ?_⟩
  rw [mem_blk0_3]
  intro a
  match a with
  | ⟨0, _⟩ =>
    show win0_3.index ⟨(i 0).val / 4096, hlt⟩ 0 * 4096 ≤ (i 0).val
      ∧ (i 0).val < win0_3.index ⟨(i 0).val / 4096, hlt⟩ 0 * 4096 + 4096
    rw [e30]; show (i 0).val / 4096 * 4096 ≤ (i 0).val ∧ (i 0).val < (i 0).val / 4096 * 4096 + 4096; omega
  | ⟨1, _⟩ =>
    show win0_3.index ⟨(i 0).val / 4096, hlt⟩ 1 * 2 ≤ (i 1).val
      ∧ (i 1).val < win0_3.index ⟨(i 0).val / 4096, hlt⟩ 1 * 2 + 2
    rw [e31]; omega

/-- After the feature region its two output arrays hold `feat1` of the logits and `feat2` of the label column. -/
theorem final0_2 (c : Dev nD) : (dat0 V c).arrAt 2 cfg0.N = Feat.feat1 (V c main_arg0) :=
  (dat0 V c).arrAt_eq_of_cover 2 _ (fun t _ => flushed0_2 V c t) covered0_2
theorem final0_3 (c : Dev nD) : (dat0 V c).arrAt 3 cfg0.N = Feat.feat2 (V c main_v0) :=
  (dat0 V c).arrAt_eq_of_cover 3 _ (fun t _ => flushed0_3 V c t) covered0_3

/-! ## The combine region -/

/-- At point `t` every window of the combine region is at block row `t`, block column 0. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- Point `t` writes back block `t` of `combine` of the three arrays as the region finds them. -/
theorem flushed1_3 (c : Dev nD) (t : Fin cfg1.N) :
    (dat1 V c).flushed 3 t = ((cfg1.win 3).blk t).view.read (Elt Ideal)
      (Combine.combine (V c main_v4) (V c main_v7) (V c main_v10)) := by
  show (cfg1.win 3).cut (grid1.coords t) ((dat1 V c).after 3 t) = _
  rw [after1_3, Combine.out1_3_eq]
  obtain ⟨e00, e01, e10, e11, e20, e21, e30, e31⟩ := idx1 t
  funext j
  show Combine.combineBlock (iblk1 V c 0 t) (iblk1 V c 1 t) (iblk1 V c 2 t) j
      = Combine.combine (V c main_v4) (V c main_v7) (V c main_v10) (((cfg1.win 3).blk t).view.emb j)
  refine Combine.combineBlock_eq (V c main_v4) (V c main_v7) (V c main_v10) (iblk1 V c 0 t) (iblk1 V c 1 t)
    (iblk1 V c 2 t) j _ (fun q => ?_) (fun q => ?_) (fun k => ?_) ?_
  · show V c main_v4 (((cfg1.win 0).blk t).view.emb (ix2 (j 0) q))
        = V c main_v4 (ix2 ((((cfg1.win 3).blk t).view.emb j) 0) q)
    refine congrArg _ (funext fun a => Fin.ext ?_)
    match a with
    | ⟨0, _⟩ => show win1_0.index t 0 * 2048 + 1 * (j 0).val = win1_3.index t 0 * 2048 + 1 * (j 0).val; omega
    | ⟨1, _⟩ => show win1_0.index t 1 * 2 + 1 * q.val = q.val; omega
  · show V c main_v7 (((cfg1.win 1).blk t).view.emb (ix2 (j 0) q))
        = V c main_v7 (ix2 ((((cfg1.win 3).blk t).view.emb j) 0) q)
    refine congrArg _ (funext fun a => Fin.ext ?_)
    match a with
    | ⟨0, _⟩ => show win1_1.index t 0 * 2048 + 1 * (j 0).val = win1_3.index t 0 * 2048 + 1 * (j 0).val; omega
    | ⟨1, _⟩ => show win1_1.index t 1 * 2 + 1 * q.val = q.val; omega
  · show V c main_v10 (((cfg1.win 2).blk t).view.emb (ix2 (j 0) k))
        = V c main_v10 (ix2 ((((cfg1.win 3).blk t).view.emb j) 0) k)
    refine congrArg _ (funext fun a => Fin.ext ?_)
    match a with
    | ⟨0, _⟩ => show win1_2.index t 0 * 2048 + 1 * (j 0).val = win1_3.index t 0 * 2048 + 1 * (j 0).val; omega
    | ⟨1, _⟩ => show win1_2.index t 1 * 3 + 1 * k.val = k.val; omega
  · show win1_3.index t 1 * 2 + 1 * (j 1).val = (j 1).val; omega

theorem mem_blk1_3 (t : Fin cfg1.N) (i : S262144x2.Idx) :
    i ∈ ((cfg1.win 3).blk t).view.set ↔ ∀ a : Fin 2, win1_3.index t a * S2048x2.size a ≤ (i a).val
      ∧ (i a).val < win1_3.index t a * S2048x2.size a + S2048x2.size a := by
  show i ∈ ((View.whole main_v11).slice (win1_3.rect t)).set ↔ _
  rw [View.set_slice_whole, Rect.mem_set_unit]
  exact Iff.rfl

/-- Segment `s` is in the block of point `s / 2048`: the 128 blocks cover the result. -/
theorem covered1_3 (i : S262144x2.Idx) :
    ∃ t : Fin cfg1.N, (cfg1.win 3).flush t = true ∧ i ∈ ((cfg1.win 3).blk t).view.set := by
  have hi0 : (i 0).val < 262144 := (i 0).isLt
  have hi1 : (i 1).val < 2 := (i 1).isLt
  have hN : cfg1.N = 128 := N_1
  have hlt : (i 0).val / 2048 < cfg1.N := by rw [hN]; omega
  obtain ⟨-, -, -, -, -, -, e30, e31⟩ := idx1 ⟨(i 0).val / 2048, hlt⟩
  refine ⟨⟨(i 0).val / 2048, hlt⟩, flush1_3 _, ?_⟩
  rw [mem_blk1_3]
  intro a
  match a with
  | ⟨0, _⟩ =>
    show win1_3.index ⟨(i 0).val / 2048, hlt⟩ 0 * 2048 ≤ (i 0).val
      ∧ (i 0).val < win1_3.index ⟨(i 0).val / 2048, hlt⟩ 0 * 2048 + 2048
    rw [e30]; show (i 0).val / 2048 * 2048 ≤ (i 0).val ∧ (i 0).val < (i 0).val / 2048 * 2048 + 2048; omega
  | ⟨1, _⟩ =>
    show win1_3.index ⟨(i 0).val / 2048, hlt⟩ 1 * 2 ≤ (i 1).val
      ∧ (i 1).val < win1_3.index ⟨(i 0).val / 2048, hlt⟩ 1 * 2 + 2
    rw [e31]; omega

/-- After the combine region the result array holds `combine` of the three arrays the region found. -/
theorem final1_3 (c : Dev nD) :
    (dat1 V c).arrAt 3 cfg1.N = Combine.combine (V c main_v4) (V c main_v7) (V c main_v10) :=
  (dat1 V c).arrAt_eq_of_cover 3 _ (fun t _ => flushed1_3 V c t) covered1_3

end Regions

end Cert.KernelIdeal.Whole

end
-- ==== Proof.KernelChain.lean ====
/-
  From the result buffer back to the arguments

  The boundary contents are read back one segment at a time: the result buffer after the combine region is `combine` of the
  three segment-sum buffers as that region found them; those are the host's scatter-adds of the two feature arrays and of
  the logits into zero arrays at the segment words; the feature arrays are what the feature region left, `feat1` of the
  logits and `feat2` of the label column; the label column is the label words laid out as a column; and no segment writes
  an argument before it is read. Composed, the result buffer ends at `value` of the four arguments.
-/
import proofs.«101748_j6330781794350_2_alg».proof.Proof.KernelValue

set_option maxRecDepth 16384

noncomputable section

namespace Cert.KernelIdeal.Whole

open Cert.KernelIdeal Cert.KernelIdeal.Gen
open Idealize.ShloMosaic Idealize.ShloMosaic.TcCoe Idealize.SL.Sem Idealize.ShloMosaic.ValueIdx
open Idealize.ShloMosaic.Pipeline (Dat)

/-- The segment sums of a two-column array of row values. -/
def segSum2 (seg : S16777216.Idx → BitVec 32) (u : S16777216x2.Idx → EReal) : S262144x2.Idx → EReal :=
  Host.scatterAdd (F := Ideal) (φ := .f32) scatter_S262144x2_S16777216x1_S16777216x2_1_0_0_1
    (broadcastInDim S262144x2 ![] bcast_S_S262144x2 (constant (F := Ideal) S_ .f32 0x00000000#32))
    (broadcastInDim S16777216x1 ![0] bcast_S16777216_S16777216x1_0 seg) u

/-- The segment sums of a three-column array of row values. -/
def segSum3 (seg : S16777216.Idx → BitVec 32) (u : S16777216x3.Idx → EReal) : S262144x3.Idx → EReal :=
  Host.scatterAdd (F := Ideal) (φ := .f32) scatter_S262144x3_S16777216x1_S16777216x3_1_0_0_1
    (broadcastInDim S262144x3 ![] bcast_S_S262144x3 (constant (F := Ideal) S_ .f32 0x00000000#32))
    (broadcastInDim S16777216x1 ![0] bcast_S16777216_S16777216x1_0 seg) u

/-- The kernel's result as one term of its four arguments. -/
def value (x : S16777216x3.Idx → EReal) (seg lab seg' : S16777216.Idx → BitVec 32) : S262144x2.Idx → EReal :=
  Combine.combine (segSum2 seg (Feat.feat1 x))
    (segSum2 seg' (Feat.feat2 (shapeCast S16777216x1 lab shapeCasts_S16777216_S16777216x1)))
    (segSum3 seg x)

variable (m : (ℓ : Loc nD τ sig) → Buf (Elt Ideal) ℓ) (ρ : Dev nD → PrngReg)

/-! ## Region 0's entry contents -/

theorem V1_arg0 (c : Dev nD) : V1 m ρ c main_arg0 = m ((c : Thread nD τ).loc main_arg0) := by
  show StableHlo.after hostOps0 (W0 m ρ c) (Proc.devRef .tc main_arg0) = _
  after_results
theorem V1_arg1 (c : Dev nD) : W1 m ρ c (Proc.devRef .tc main_arg1) = m ((c : Thread nD τ).loc main_arg1) := by
  show StableHlo.after hostOps0 (W0 m ρ c) (Proc.devRef .tc main_arg1) = _
  after_results
theorem V1_arg3 (c : Dev nD) : W1 m ρ c (Proc.devRef .tc main_arg3) = m ((c : Thread nD τ).loc main_arg3) := by
  show StableHlo.after hostOps0 (W0 m ρ c) (Proc.devRef .tc main_arg3) = _
  after_results
/-- The label column is the label words laid out as a column. -/
theorem V1_v0 (c : Dev nD) : (V1 m ρ c main_v0 : S16777216x1.Idx → BitVec 32)
    = shapeCast S16777216x1 (m ((c : Thread nD τ).loc main_arg2) : S16777216.Idx → BitVec 32) shapeCasts_S16777216_S16777216x1 := by
  show StableHlo.after hostOps0 (W0 m ρ c) (Proc.devRef .tc main_v0) = _
  after_results
  rfl

/-! ## Region 0's exit contents -/

theorem W2_v1_0 (c : Dev nD) : (W2 m ρ c (Proc.devRef .tc main_v1_0) : S16777216x2.Idx → EReal)
    = Feat.feat1 (m ((c : Thread nD τ).loc main_arg0)) :=
  ((W2_arr m ρ c 2).trans (final0_2 (V1 m ρ) c)).trans (congrArg Feat.feat1 (V1_arg0 m ρ c))
theorem W2_v1_1 (c : Dev nD) : (W2 m ρ c (Proc.devRef .tc main_v1_1) : S16777216x2.Idx → EReal)
    = Feat.feat2 (shapeCast S16777216x1 (m ((c : Thread nD τ).loc main_arg2) : S16777216.Idx → BitVec 32) shapeCasts_S16777216_S16777216x1) :=
  ((W2_arr m ρ c 3).trans (final0_3 (V1 m ρ) c)).trans (congrArg Feat.feat2 (V1_v0 m ρ c))
theorem W2_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (V1_arg0 m ρ c)
theorem W2_arg1 (c : Dev nD) : W2 m ρ c (Proc.devRef .tc main_arg1) = m ((c : Thread nD τ).loc main_arg1) :=
  (W2_of_ne m ρ c main_arg1 (by decide)).trans (V1_arg1 m ρ c)
theorem W2_arg3 (c : Dev nD) : W2 m ρ c (Proc.devRef .tc main_arg3) = m ((c : Thread nD τ).loc main_arg3) :=
  (W2_of_ne m ρ c main_arg3 (by decide)).trans (V1_arg3 m ρ c)

/-! ## Region 1's entry contents: the three segment sums -/

theorem V3_v4 (c : Dev nD) : (V3 m ρ c main_v4 : S262144x2.Idx → EReal)
    = segSum2 (m ((c : Thread nD τ).loc main_arg1)) (Feat.feat1 (m ((c : Thread nD τ).loc main_arg0))) := by
  show StableHlo.after hostOps1 (W2 m ρ c) (Proc.devRef .tc main_v4) = _
  after_results
  rw [W2_arg1, W2_v1_0]
  rfl
theorem V3_v7 (c : Dev nD) : (V3 m ρ c main_v7 : S262144x2.Idx → EReal)
    = segSum2 (m ((c : Thread nD τ).loc main_arg3)) (Feat.feat2 (shapeCast S16777216x1
        (m ((c : Thread nD τ).loc main_arg2) : S16777216.Idx → BitVec 32) shapeCasts_S16777216_S16777216x1)) := by
  show StableHlo.after hostOps1 (W2 m ρ c) (Proc.devRef .tc main_v7) = _
  after_results
  rw [W2_arg3, W2_v1_1]
  rfl
theorem V3_v10 (c : Dev nD) : (V3 m ρ c main_v10 : S262144x3.Idx → EReal)
    = segSum3 (m ((c : Thread nD τ).loc main_arg1)) (m ((c : Thread nD τ).loc main_arg0)) := by
  show StableHlo.after hostOps1 (W2 m ρ c) (Proc.devRef .tc main_v10) = _
  after_results
  rw [W2_arg1, W2_arg0]
  rfl

/-! ## The result -/

/-- The result buffer after the last segment is `value` of the four arguments' launch contents. -/
theorem result_eq (c : Dev nD) : (W4 m ρ c (Proc.devRef .tc main_v11) : S262144x2.Idx → EReal)
    = value (m ((c : Thread nD τ).loc main_arg0)) (m ((c : Thread nD τ).loc main_arg1))
        (m ((c : Thread nD τ).loc main_arg2)) (m ((c : Thread nD τ).loc main_arg3)) := by
  refine ((W4_arr m ρ c 3).trans (final1_3 (V3 m ρ) c)).trans ?_
  rw [V3_v4, V3_v7, V3_v10]
  rfl

/-- The run, read: the result buffer at `value` of the arguments, the arguments unchanged. -/
theorem run : θ_run defs (onTc (τ := τ) (main (F := Ideal))) ⟨m, fun _ => 0, ρ⟩ (fun r => ∀ c : Dev nD,
      r.2.mem ((c.tc : Thread nD τ).loc main_v11) = value (m ((c : Thread nD τ).loc main_arg0))
        (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ c), (h c).2⟩) (Named.run m ρ)

end Cert.KernelIdeal.Whole

end
-- ==== Proof.LibSegmentOps.lean ====
/-
  Segment sums and row gathers read at an index

  A graph layer sums, for every node, a value carried by each edge that ends at it, and reads, for every edge, a value
  carried by the node it starts from. In StableHLO the first is a `scatter` whose body adds, over an index array of shape
  `[M, 1]` (one node number per edge), and the second a `gather` over the same kind of index array. This file reads
  both at one element, at the ideal instance (a float is an extended real), for a vector of node values (`[N]`) and for
  a matrix of node rows (`[N, C]`):

  * `scatterAdd1_apply` / `scatterAdd2_apply`: element `i` (or `(i, o)`) of the accumulated array is the operand's
    element plus the sum, over the edges `e` whose index word read as a signed integer is `i`, of update `e` (or
    `(e, o)`); an edge whose index is outside `[0, N)` contributes to no element.
  * `gather1_apply` / `gather2_apply`: element `e` (or `(e, o)`) of the gathered array is the operand at the index word of
    edge `e` read as a signed integer and clamped into `[0, N - 1]`.

  The dimension numbers are abbreviations that take the proof of their side conditions as an argument, so a record with the
  same field lists is one of them by `rfl`.
-/
import Idealize.ShloMosaic.PureOps.Ideal
import Idealize.ShloMosaic.Lib.ValueIdx

noncomputable section

open scoped BigOperators

namespace Idealize.ShloMosaic.SegmentOps

open Idealize.ShloMosaic Idealize.ShloMosaic.ValueIdx

/-! ## Two general facts -/

/-- A rank-1 index set is its coordinate range. -/
def idxEquiv1 {n : Nat} : (⟨1, ![n]⟩ : Shape).Idx ≃ Fin n where
  toFun j := j 0
  invFun a := ix1 a
  left_inv j := (eq_ix1 j).symm
  right_inv _ := rfl

/-- An update index `j` lands at the operand index `i` exactly when, on every operand axis, the start read off the
    scatter indices plus the window coordinate is `i`'s coordinate (so in particular is inside the operand). -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro he a
      have h1 := congrFun (Option.some.inj he) a
      have h2 := congrArg Fin.val h1
      simp only at h2
      have := h a
      omega
    · intro he
      refine congrArg some (funext fun a => Fin.ext ?_)
      have := he a
      simp only
      omega
  · rename_i h
    constructor
    · intro he; exact absurd he (by simp)
    · intro he
      exact absurd (fun a => by have := he a; have := (i a).isLt; omega) h

/-- An operand axis is kept by a scatter's window exactly when it is not an inserted axis. -/
theorem mem_sKept {s si u : Shape} (d : ScatterDims s si u) (a : Fin s.rank) :
    a ∈ d.sKept ↔ a ∉ d.insertedWindowDims := by
  simp [ScatterDims.sKept, Shape.kept, List.mem_filter, List.mem_finRange]

/-! ## Gathering node values along the edges -/

section Gather
variable {α : Type}

/-- The dimension numbers of the gather of a vector of node values `[N]` at an index array `[M, 1]`: the one operand
    axis is collapsed and named by the start index map, every slice is one element, and the index vector lies along axis 1. -/
abbrev rowDims1 (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- The gather of a vector read at edge `e`: the operand at the index word of `e`, read signed and clamped into
    `[0, N - 1]`. -/
theorem gather1_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (rowDims1 N M wf) x idx (ix1 e) = x (ix1 ⟨min (idx (ix2 e 0)).toInt.toNat (N - 1), by omega⟩) := by
  unfold Host.gather
  congr 1
  funext a
  obtain rfl : a = 0 := Subsingleton.elim _ _
  refine Fin.ext ?_
  show (rowDims1 N M wf).start (ix1 e) idx 0 + (rowDims1 N M wf).batchCoord (ix1 e) 0
    + (rowDims1 N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (rowDims1 N M wf).startIndexMap from List.mem_singleton.mpr rfl)]
  have hsi : (rowDims1 N M wf).siIdx (ix1 e) ⟨List.idxOf (0 : Fin 1) (rowDims1 N M wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The dimension numbers of the gather of a matrix of node rows `[N, C]` at an index array `[M, 1]`: the row axis
    is collapsed and named by the start index map, a slice is one whole row, which fills the result's axis 1, and the index
    vector lies along axis 1. -/
abbrev rowDims2 (N C M : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The gather of rows read at edge `e` and column `o`: column `o` of the operand's row at the index word of `e`, read
    signed and clamped into `[0, N - 1]`. -/
theorem gather2_apply {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (o : Fin C) :
    Host.gather (rowDims2 N C M wf) x idx (ix2 e o)
      = x (ix2 ⟨min (idx (ix2 e 0)).toInt.toNat (N - 1), by omega⟩ o) := by
  unfold Host.gather
  congr 1
  funext a
  refine Fin.ext ?_
  match a with
  | ⟨0, _⟩ =>
    show (rowDims2 N C M wf).start (ix2 e o) idx 0 + (rowDims2 N C M wf).batchCoord (ix2 e o) 0
      + (rowDims2 N C M wf).offCoord (ix2 e o) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims2 N C M wf).startIndexMap from List.mem_singleton.mpr rfl)]
    have hsi : (rowDims2 N C M wf).siIdx (ix2 e o) ⟨List.idxOf (0 : Fin 2) (rowDims2 N C M wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowDims2 N C M wf).start (ix2 e o) idx 1 + (rowDims2 N C M wf).batchCoord (ix2 e o) 1
      + (rowDims2 N C M wf).offCoord (ix2 e o) 1 = _
    have h1 : (1 : Fin 2) ∉ (rowDims2 N C M wf).startIndexMap := by
      intro h; exact absurd (List.mem_singleton.mp h) (show ¬((1 : Fin 2) = 0) by decide)
    have h2 : (1 : Fin 2) ∈ (rowDims2 N C M wf).sKept :=
      (GatherDims.mem_sKept _ _).mpr ⟨fun h => absurd (List.mem_singleton.mp h) (show ¬((1 : Fin 2) = 0) by decide), List.not_mem_nil⟩
    rw [GatherDims.batchCoord_eq_zero _ _ _ List.not_mem_nil]
    unfold GatherDims.start GatherDims.offCoord
    rw [dif_neg h1, dif_pos h2]
    simp only [Nat.add_zero, Nat.zero_add]
    rfl

end Gather

/-! ## Summing edge values into the nodes -/

section ScatterAdd
variable {φ : FTy}

/-- The dimension numbers of the accumulation of a vector of edge values `[M]` into a vector of node values `[N]` at an
    index array `[M, 1]`: an update is a single element (no window axis), the one operand axis is inserted and named by
    the index vector, which lies along axis 1. -/
abbrev addDims1 (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Edge `e`'s value lands at node `i` exactly when the index word of `e`, read signed, is `i`. -/
theorem addDims1_lands {N M w : Nat} (wf : ScatterDims.WF ⟨1, ![N]⟩ ⟨2, ![M, 1]⟩ ⟨1, ![M]⟩ [] [0] [0] 1)
    (idx : IVec ⟨2, ![M, 1]⟩ w) (e : Fin M) (i : Fin N) :
    (addDims1 N M wf).resultIdx? (ix1 e) idx = some (ix1 i) ↔ (idx (ix2 e 0)).toInt = (i.val : Int) := by
  rw [resultIdx?_eq_some_iff]
  have hstart : (addDims1 N M wf).start (ix1 e) idx 0 = (idx (ix2 e 0)).toInt := by
    unfold ScatterDims.start
    rw [dif_pos (show (0 : Fin 1) ∈ (addDims1 N M wf).scatterDimsToOperandDims from List.mem_singleton.mpr rfl)]
    have hsi : (addDims1 N M wf).siIdx (ix1 e) ⟨List.idxOf (0 : Fin 1) (addDims1 N M wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hwin : (addDims1 N M wf).window (ix1 e) 0 = 0 := by
    unfold ScatterDims.window
    rw [dif_neg (fun h => (mem_sKept _ _).mp h (List.mem_singleton.mpr rfl))]
  constructor
  · intro h
    have h0 : (addDims1 N M wf).start (ix1 e) idx 0 + (((addDims1 N M wf).window (ix1 e) 0 : Nat) : Int)
        = (i.val : Int) := h 0
    rw [hstart, hwin] at h0
    simpa using h0
  · intro h a
    obtain rfl : a = 0 := Subsingleton.elim _ _
    show (addDims1 N M wf).start (ix1 e) idx 0 + (((addDims1 N M wf).window (ix1 e) 0 : Nat) : Int) = (i.val : Int)
    rw [hstart, hwin]
    simpa using h

/-- The accumulated vector read at node `i`: the operand's element plus the sum of the updates of the edges whose index
    word, read signed, is `i`. -/
theorem scatterAdd1_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : Fin N) :
    Host.scatterAdd (F := Ideal) (φ := φ) (addDims1 N M wf) x idx upd (ix1 i)
      = x (ix1 i) + ∑ e ∈ Finset.univ.filter (fun e : Fin M => (idx (ix2 e 0)).toInt = (i.val : Int)),
          upd (ix1 e) := by
  show Ideal.hostScatterAdd (addDims1 N M wf) x idx upd (ix1 i) = _
  unfold Ideal.hostScatterAdd
  congr 1
  rw [Finset.sum_filter, Finset.sum_filter, ← Equiv.sum_comp (idxEquiv1 (n := M)).symm]
  refine Finset.sum_congr rfl fun e _ => ?_
  show (if (addDims1 N M wf).resultIdx? (ix1 e) idx = some (ix1 i) then upd (ix1 e) else 0) = _
  by_cases h : (idx (ix2 e 0)).toInt = (i.val : Int)
  · rw [if_pos ((addDims1_lands wf idx e i).mpr h), if_pos h]
  · rw [if_neg (fun h' => h ((addDims1_lands wf idx e i).mp h')), if_neg h]

/-- The dimension numbers of the accumulation of a matrix of edge rows `[M, C]` into a matrix of node rows `[N, C]` at
    an index array `[M, 1]`: an update is one whole row (axis 1 of the updates is the window, laid on axis 1 of the
    operand), the row axis of the operand is inserted and named by the index vector, which lies along axis 1. -/
abbrev addDims2 (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- Column `o'` of edge `e`'s row lands at column `o` of node `i` exactly when the index word of `e`, read signed, is
    `i` and the columns are the same. -/
theorem addDims2_lands {N C M w : Nat} (wf : ScatterDims.WF ⟨2, ![N, C]⟩ ⟨2, ![M, 1]⟩ ⟨2, ![M, C]⟩ [1] [0] [0] 1)
    (idx : IVec ⟨2, ![M, 1]⟩ w) (e : Fin M) (o' : Fin C) (i : Fin N) (o : Fin C) :
    (addDims2 N C M wf).resultIdx? (ix2 e o') idx = some (ix2 i o)
      ↔ (idx (ix2 e 0)).toInt = (i.val : Int) ∧ o' = o := by
  rw [resultIdx?_eq_some_iff]
  have hstart0 : (addDims2 N C M wf).start (ix2 e o') idx 0 = (idx (ix2 e 0)).toInt := by
    unfold ScatterDims.start
    rw [dif_pos (show (0 : Fin 2) ∈ (addDims2 N C M wf).scatterDimsToOperandDims from List.mem_singleton.mpr rfl)]
    have hsi : (addDims2 N C M wf).siIdx (ix2 e o') ⟨List.idxOf (0 : Fin 2) (addDims2 N C M wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hstart1 : (addDims2 N C M wf).start (ix2 e o') idx 1 = 0 := by
    unfold ScatterDims.start
    rw [dif_neg (fun h => absurd (List.mem_singleton.mp h) (show ¬((1 : Fin 2) = 0) by decide))]
  have hwin0 : (addDims2 N C M wf).window (ix2 e o') 0 = 0 := by
    unfold ScatterDims.window
    rw [dif_neg (fun h => (mem_sKept _ _).mp h (List.mem_singleton.mpr rfl))]
  have hwin1 : (addDims2 N C M wf).window (ix2 e o') 1 = o'.val := by
    unfold ScatterDims.window
    rw [dif_pos ((mem_sKept _ _).mpr
      (fun h => absurd (List.mem_singleton.mp h) (show ¬((1 : Fin 2) = 0) by decide)))]
    rfl
  constructor
  · intro h
    have h0 : (addDims2 N C M wf).start (ix2 e o') idx 0 + (((addDims2 N C M wf).window (ix2 e o') 0 : Nat) : Int)
        = (i.val : Int) := h 0
    have h1 : (addDims2 N C M wf).start (ix2 e o') idx 1 + (((addDims2 N C M wf).window (ix2 e o') 1 : Nat) : Int)
        = (o.val : Int) := h 1
    rw [hstart0, hwin0] at h0
    rw [hstart1, hwin1] at h1
    exact ⟨by simpa using h0, Fin.ext (by omega)⟩
  · rintro ⟨h, rfl⟩ a
    match a with
    | ⟨0, _⟩ =>
      show (addDims2 N C M wf).start (ix2 e o') idx 0 + (((addDims2 N C M wf).window (ix2 e o') 0 : Nat) : Int)
        = (i.val : Int)
      rw [hstart0, hwin0]
      simpa using h
    | ⟨1, _⟩ =>
      show (addDims2 N C M wf).start (ix2 e o') idx 1 + (((addDims2 N C M wf).window (ix2 e o') 1 : Nat) : Int)
        = (o'.val : Int)
      rw [hstart1, hwin1]
      simp

/-- The accumulated matrix read at node `i` and column `o`: the operand's element plus the sum, over the edges whose
    index word read signed is `i`, of column `o` of the edge's update row. -/
theorem scatterAdd2_apply {N C M w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w)
    (upd : (⟨2, ![M, C]⟩ : Shape).Idx → EReal) (i : Fin N) (o : Fin C) :
    Host.scatterAdd (F := Ideal) (φ := φ) (addDims2 N C M wf) x idx upd (ix2 i o)
      = x (ix2 i o) + ∑ e ∈ Finset.univ.filter (fun e : Fin M => (idx (ix2 e 0)).toInt = (i.val : Int)),
          upd (ix2 e o) := by
  show Ideal.hostScatterAdd (addDims2 N C M wf) x idx upd (ix2 i o) = _
  unfold Ideal.hostScatterAdd
  congr 1
  rw [Finset.sum_filter, Finset.sum_filter, sum_idx2]
  refine Finset.sum_congr rfl fun e _ => ?_
  by_cases h : (idx (ix2 e 0)).toInt = (i.val : Int)
  · rw [if_pos h, Finset.sum_eq_single o]
    · exact if_pos ((addDims2_lands wf idx e o i o).mpr ⟨h, rfl⟩)
    · intro b _ hb
      exact if_neg (fun h' => hb ((addDims2_lands wf idx e b i o).mp h').2)
    · intro ho
      exact absurd (Finset.mem_univ o) ho
  · rw [if_neg h]
    exact Finset.sum_eq_zero fun b _ => if_neg (fun h' => h ((addDims2_lands wf idx e b i o).mp h').1)

end ScatterAdd

end Idealize.ShloMosaic.SegmentOps

end
-- ==== Proof.LibHostReads.lean ====
/-
  The reference's array operations READ AT AN INDEX, over shapes of literal rank and any extents: the keepdims
  broadcasts ([a] → [a, 1], [b] → [1, b], [a, 1] → [a, b], [1, b] → [a, b], [a, b] → [a, b, 1], [a, b, 1] → [a, b, c]),
  the transpose of a matrix, a host sum over one axis of a rank-3 or rank-2 array as the initial value plus the
  `Fin`-indexed sum over that axis, the square root, and the integer-to-float conversions at the ideal values.
-/
import Idealize.ShloMosaic.PureOps.Ideal.Laws
import Idealize.ShloMosaic.Lib.Pipeline.Value
import Idealize.ShloMosaic.Lib.ValueIdx
import Idealize.ShloMosaic.Lib.IdealHost

noncomputable section

open scoped BigOperators

namespace Idealize.ShloMosaic.HostReads

open Idealize.ShloMosaic Idealize.ShloMosaic.ValueIdx

/-! ## Broadcasts and the transpose -/

section Layout
variable {α : Type}

/-- [a] placed as a column [a, 1]: entry (i, 0) is entry i. -/
theorem bcast_toCol_apply {a : Nat} (h : (⟨1, ![a]⟩ : Shape).BroadcastsInDim ⟨2, ![a, 1]⟩ ![0])
    (x : (⟨1, ![a]⟩ : Shape).Idx → α) (i : Fin a) (z : Fin 1) :
    broadcastInDim ⟨2, ![a, 1]⟩ ![0] h x (ix2 i z) = x (ix1 i) :=
  broadcastInDim_apply _ h x (ix2 i z) (ix1 i) (fun d => by
    match d with
    | ⟨0, _⟩ =>
      show i.val = if a = 1 then 0 else i.val
      split
      · have := i.isLt; omega
      · rfl)

/-- [b] placed as a row [1, b]: entry (0, j) is entry j. -/
theorem bcast_toRow_apply {b : Nat} (h : (⟨1, ![b]⟩ : Shape).BroadcastsInDim ⟨2, ![1, b]⟩ ![1])
    (x : (⟨1, ![b]⟩ : Shape).Idx → α) (z : Fin 1) (j : Fin b) :
    broadcastInDim ⟨2, ![1, b]⟩ ![1] h x (ix2 z j) = x (ix1 j) :=
  broadcastInDim_apply _ h x (ix2 z j) (ix1 j) (fun d => by
    match d with
    | ⟨0, _⟩ =>
      show j.val = if b = 1 then 0 else j.val
      split
      · have := j.isLt; omega
      · rfl)

/-- A column [a, 1] repeated along the second axis: entry (i, j) is the column's entry (i, 0). -/
theorem bcast_col_apply {a b : Nat} (h : (⟨2, ![a, 1]⟩ : Shape).BroadcastsInDim ⟨2, ![a, b]⟩ ![0, 1])
    (x : (⟨2, ![a, 1]⟩ : Shape).Idx → α) (i : Fin a) (j : Fin b) :
    broadcastInDim ⟨2, ![a, b]⟩ ![0, 1] h x (ix2 i j) = x (ix2 i 0) :=
  broadcastInDim_apply _ h x (ix2 i j) (ix2 i 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl])

/-- A row [1, b] repeated along the first axis: entry (i, j) is the row's entry (0, j). -/
theorem bcast_row_apply {a b : Nat} (h : (⟨2, ![1, b]⟩ : Shape).BroadcastsInDim ⟨2, ![a, b]⟩ ![0, 1])
    (x : (⟨2, ![1, b]⟩ : Shape).Idx → α) (i : Fin a) (j : Fin b) :
    broadcastInDim ⟨2, ![a, b]⟩ ![0, 1] h x (ix2 i j) = x (ix2 0 j) :=
  broadcastInDim_apply _ h x (ix2 i j) (ix2 0 j) (fun d => by
    match d with
    | ⟨0, _⟩ => show 0 = if (1 : Nat) = 1 then 0 else i.val; rw [if_pos rfl]
    | ⟨1, _⟩ =>
      show j.val = if b = 1 then 0 else j.val
      split
      · have := j.isLt; omega
      · rfl)

/-- [a, b] given a trailing unit axis: entry (i, j, 0) is entry (i, j). -/
theorem bcast_keep3_apply {a b : Nat} (h : (⟨2, ![a, b]⟩ : Shape).BroadcastsInDim ⟨3, ![a, b, 1]⟩ ![0, 1])
    (x : (⟨2, ![a, b]⟩ : Shape).Idx → α) (i : Fin a) (j : Fin b) (z : Fin 1) :
    broadcastInDim ⟨3, ![a, b, 1]⟩ ![0, 1] h x (ix3 i j z) = x (ix2 i j) :=
  broadcastInDim_apply _ h x (ix3 i j z) (ix2 i j) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl)

/-- [a, b, 1] repeated along the last axis: entry (i, j, k) is entry (i, j, 0). -/
theorem bcast_lane3_apply {a b c : Nat} (h : (⟨3, ![a, b, 1]⟩ : Shape).BroadcastsInDim ⟨3, ![a, b, c]⟩ ![0, 1, 2])
    (x : (⟨3, ![a, b, 1]⟩ : Shape).Idx → α) (i : Fin a) (j : Fin b) (k : Fin c) :
    broadcastInDim ⟨3, ![a, b, c]⟩ ![0, 1, 2] h x (ix3 i j k) = x (ix3 i j 0) :=
  broadcastInDim_apply _ h x (ix3 i j k) (ix3 i j 0) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => show 0 = if (1 : Nat) = 1 then 0 else k.val; rw [if_pos rfl])

/-- The transpose of a matrix: entry (j, i) is entry (i, j). -/
theorem transpose2_apply {a b : Nat} (h : (⟨2, ![a, b]⟩ : Shape).Transposes [1, 0] ⟨2, ![b, a]⟩)
    (x : (⟨2, ![a, b]⟩ : Shape).Idx → α) (j : Fin b) (i : Fin a) :
    transpose ⟨2, ![b, a]⟩ [1, 0] x h (ix2 j i) = x (ix2 i j) :=
  transpose_apply [1, 0] x h (ix2 j i) (ix2 i j) (fun d => by
    match d with
    | ⟨0, _⟩ => rfl
    | ⟨1, _⟩ => rfl)

end Layout

/-! ## Host sums over one axis -/

/-- The host's sum over the last axis of a rank-3 array, at (i, j). -/
theorem hostSum3_last_apply {a b c : Nat} (h' : (⟨3, ![a, b, c]⟩ : Shape).ReducesTo [2] ⟨2, ![a, b]⟩)
    (h : (⟨3, ![a, b, c]⟩ : Shape).Reduces [2] ⟨2, ![a, b]⟩) (x : (⟨3, ![a, b, c]⟩ : Shape).Idx → EReal) (init : EReal)
    (i : Fin a) (j : Fin b) :
    Ideal.hostReduceAdd h' x init (ix2 i j) = init + ∑ k : Fin c, x (ix3 i j k) :=
  (Ideal.hostReduceAdd_single h' h x init (ix2 i j)).trans
    (congrArg (init + ·) (Finset.sum_congr rfl fun k _ => congrArg x (funext fun d => Fin.ext (by
      match d with | ⟨0, _⟩ => rfl | ⟨1, _⟩ => rfl | ⟨2, _⟩ => rfl))))

/-- The host's sum over the middle axis of a rank-3 array, at (i, k). -/
theorem hostSum3_mid_apply {a b c : Nat} (h' : (⟨3, ![a, b, c]⟩ : Shape).ReducesTo [1] ⟨2, ![a, c]⟩)
    (h : (⟨3, ![a, b, c]⟩ : Shape).Reduces [1] ⟨2, ![a, c]⟩) (x : (⟨3, ![a, b, c]⟩ : Shape).Idx → EReal) (init : EReal)
    (i : Fin a) (k : Fin c) :
    Ideal.hostReduceAdd h' x init (ix2 i k) = init + ∑ j : Fin b, x (ix3 i j k) :=
  (Ideal.hostReduceAdd_single h' h x init (ix2 i k)).trans
    (congrArg (init + ·) (Finset.sum_congr rfl fun j _ => congrArg x (funext fun d => Fin.ext (by
      match d with | ⟨0, _⟩ => rfl | ⟨1, _⟩ => rfl | ⟨2, _⟩ => rfl))))

/-- The host's sum over the second axis of a matrix, at i. -/
theorem hostSum2_apply {a b : Nat} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (i : Fin a) :
    Ideal.hostReduceAdd h' x init (ix1 i) = init + ∑ j : Fin b, x (ix2 i j) :=
  (Ideal.hostReduceAdd_single h' h x init (ix1 i)).trans
    (congrArg (init + ·) (Finset.sum_congr rfl fun j _ => congrArg x (funext fun d => Fin.ext (by
      match d with | ⟨0, _⟩ => rfl | ⟨1, _⟩ => rfl))))

/-! ## Pointwise operations the library's index lemmas do not name -/

section Pointwise
variable {s : Shape}

/-- The host's square root at an index is the extended reals' square root of the element. -/
theorem hostSqrt_apply {φ : FTy} (x : FVec Ideal s φ) (i : s.Idx) : Host.sqrt x i = Ideal.sqrt (x i) := rfl

/-- An integer comparison at an index compares the elements. -/
theorem cmpi_apply {w : Nat} (p : CmpIPredicate) (x y : IVec s w) (i : s.Idx) : cmpi p x y i = IntOp.cmpi p (x i) (y i) := rfl

/-- An unsigned-integer-to-float conversion at an index converts the element. -/
theorem uitofp_apply {w : Nat} {φ : FTy} (x : IVec s w) (i : s.Idx) :
    (uitofp φ x : FVec Ideal s φ) i = FloatOps.uitofp φ (x i) := rfl

end Pointwise

/-- At the ideal values a signed word converts to the integer it denotes … -/
theorem sitofp_ideal {w : Nat} {φ : FTy} (b : BitVec w) : FloatOps.sitofp (F := Ideal) φ b = ((b.toInt : ℝ) : EReal) := rfl

/-- … and an unsigned word to the natural number it denotes. -/
theorem uitofp_ideal {w : Nat} {φ : FTy} (b : BitVec w) : FloatOps.uitofp (F := Ideal) φ b = ((b.toNat : ℝ) : EReal) := rfl

end Idealize.ShloMosaic.HostReads

end
-- ==== Proof.KernelIsSpec.lean ====
/-
  The kernel's term is the specification

  At segment `s` a scatter-add into a zero array is the zero pattern plus the sum, over the rows whose segment word read
  as a signed integer is `s`, of the row's value. So column 0 of the first segment-sum array is the count (every row
  adds 1), column 1 the sum of the rows' largest logits, the second array's columns are the counts of label 4 and of
  label 1, and the third array's columns the logit sums; `combine` applies the two formulas to exactly these. The one
  difference in spelling is the label indicator: the kernel widens the comparison bit to a word and converts it as a
  signed integer, the specification converts the bit as an unsigned integer — a bit is 0 or 1 either way.
-/
import proofs.«101748_j6330781794350_2_alg».proof.Proof.KernelChain
import proofs.«101748_j6330781794350_2_alg».proof.Proof.LibSegmentOps
import proofs.«101748_j6330781794350_2_alg».proof.Proof.LibHostReads
import proofs.«101748_j6330781794350_2_alg».proof.Proof.LibKeepdims

set_option maxRecDepth 16384

noncomputable section

open scoped BigOperators

namespace Cert.KernelIdeal.Whole

open Cert.KernelIdeal Cert.KernelIdeal.Gen Cert.SegAgg
open Idealize.ShloMosaic Idealize.ShloMosaic.TcCoe Idealize.SL.Sem Idealize.ShloMosaic.ValueIdx

/-- A comparison bit widened and read signed is the bit read unsigned. -/
theorem bitF_eq (b : BitVec 1) : Feat.bitF b = FloatOps.uitofp (F := Ideal) .f32 b := by
  show (((b.setWidth 32).toInt : ℝ) : EReal) = ((b.toNat : ℝ) : EReal)
  have h : (b.setWidth 32).toInt = (b.toNat : Int) := by
    rcases BitVec.eq_zero_or_eq_one b with rfl | rfl <;> decide
  rw [h]
  norm_cast

/-- The zero arrays the sums start from. -/
theorem zeros2_apply (i : S262144x2.Idx) :
    broadcastInDim S262144x2 ![] bcast_S_S262144x2 (constant (F := Ideal) S_ .f32 0x00000000#32) i = zero :=
  broadcastInDim_apply _ bcast_S_S262144x2 _ i (fun a => a.elim0) (fun a => a.elim0)
theorem zeros3_apply (i : S262144x3.Idx) :
    broadcastInDim S262144x3 ![] bcast_S_S262144x3 (constant (F := Ideal) S_ .f32 0x00000000#32) i = zero :=
  broadcastInDim_apply _ bcast_S_S262144x3 _ i (fun a => a.elim0) (fun a => a.elim0)

/-- A two-column segment sum at segment `s`, column `k`. -/
theorem segSum2_apply (seg : S16777216.Idx → BitVec 32) (u : S16777216x2.Idx → EReal) (s : Fin 262144) (k : Fin 2) :
    segSum2 seg u (ix2 s k) = segSum seg (fun e => u (ix2 e k)) s := by
  unfold segSum2 segSum rowsOf
  refine (SegmentOps.scatterAdd2_apply (φ := .f32) scatter_S262144x2_S16777216x1_S16777216x2_1_0_0_1_wf _ _ u s k).trans ?_
  rw [zeros2_apply]
  refine congrArg (zero + ·) (Finset.sum_congr (Finset.filter_congr fun e _ => ?_) fun _ _ => rfl)
  rw [HostReads.bcast_toCol_apply _ seg e 0]

/-- A three-column segment sum at segment `s`, column `k`. -/
theorem segSum3_apply (seg : S16777216.Idx → BitVec 32) (u : S16777216x3.Idx → EReal) (s : Fin 262144) (k : Fin 3) :
    segSum3 seg u (ix2 s k) = segSum seg (fun e => u (ix2 e k)) s := by
  unfold segSum3 segSum rowsOf
  refine (SegmentOps.scatterAdd2_apply (φ := .f32) scatter_S262144x3_S16777216x1_S16777216x3_1_0_0_1_wf _ _ u s k).trans ?_
  rw [zeros3_apply]
  refine congrArg (zero + ·) (Finset.sum_congr (Finset.filter_congr fun e _ => ?_) fun _ _ => rfl)
  rw [HostReads.bcast_toCol_apply _ seg e 0]

/-- The label indicators of the feature array are the specification's. -/
theorem feat2_col0 (lab : S16777216.Idx → BitVec 32) (e : Fin 16777216) :
    Feat.feat2 (shapeCast S16777216x1 lab shapeCasts_S16777216_S16777216x1) (ix2 e 0) = isLabel lab 4#32 e := by
  show Feat.bitF (IntOp.cmpi .eq (shapeCast S16777216x1 lab shapeCasts_S16777216_S16777216x1 (ix2 e 0)) 4#32) = _
  rw [Keepdims.cast_col_apply, bitF_eq]
  rfl
theorem feat2_col1 (lab : S16777216.Idx → BitVec 32) (e : Fin 16777216) :
    Feat.feat2 (shapeCast S16777216x1 lab shapeCasts_S16777216_S16777216x1) (ix2 e 1) = isLabel lab 1#32 e := by
  show Feat.bitF (IntOp.cmpi .eq (shapeCast S16777216x1 lab shapeCasts_S16777216_S16777216x1 (ix2 e 0)) 1#32) = _
  rw [Keepdims.cast_col_apply, bitF_eq]
  rfl

/-- The kernel's result is the specification's function of the four arguments. -/
theorem value_eq_agg (x : S16777216x3.Idx → EReal) (seg lab seg' : S16777216.Idx → BitVec 32) :
    value x seg lab seg' = agg x seg lab seg' := by
  funext i
  obtain ⟨s, q, rfl⟩ : ∃ (s : Fin 262144) (q : Fin 2), i = ix2 s q := ⟨i 0, i 1, eq_ix2 i⟩
  have hcount : segSum2 seg (Feat.feat1 x) (ix2 s 0) = count seg s := by
    rw [segSum2_apply]; rfl
  have hmax : segSum2 seg (Feat.feat1 x) (ix2 s 1) = segSum seg (rowMax x) s := by
    rw [segSum2_apply]; rfl
  have h4 : segSum2 seg' (Feat.feat2 (shapeCast S16777216x1 lab shapeCasts_S16777216_S16777216x1)) (ix2 s 0)
      = labelCount lab seg' 4#32 s := by
    rw [segSum2_apply]; unfold labelCount; simp only [feat2_col0]
  have h1 : segSum2 seg' (Feat.feat2 (shapeCast S16777216x1 lab shapeCasts_S16777216_S16777216x1)) (ix2 s 1)
      = labelCount lab seg' 1#32 s := by
    rw [segSum2_apply]; unfold labelCount; simp only [feat2_col1]
  have hs : ∀ k : Fin 3, segSum3 seg x (ix2 s k) = colSum x seg k s := fun k => segSum3_apply seg x s k
  show Combine.combineAt (segSum2 seg (Feat.feat1 x))
      (segSum2 seg' (Feat.feat2 (shapeCast S16777216x1 lab shapeCasts_S16777216_S16777216x1))) (segSum3 seg x) s q
    = if q.val = 0 then first (count seg s) (avgMax x seg s) (colSum x seg 0 s) (labelCount lab seg' 1#32 s)
      else second (count seg s) (avgMax x seg s) (colSum x seg 1 s) (colSum x seg 2 s) (labelCount lab seg' 4#32 s)
  unfold Combine.combineAt Combine.avgAt avgMax
  rw [hcount, hmax, h4, h1, hs 0, hs 1, hs 2]

end Cert.KernelIdeal.Whole

end
-- ==== Proof.LibCallBuffers.lean ====
/-
  Two small facts about a host program read as a list of operations (Lib/StableHlo/Run.lean), for any values:

  * `after_append`: the buffers' contents after a list of operations run in two parts — the second part starts from what
    the first part leaves. It lets a long program be read in pieces, each over the previous piece's results as atoms.
  * `ofBuf_toBuf`: a value stored into a called function's typed buffer and read back from it is the value (the two
    transports along the buffer's type equation cancel). A function that jax outlined (relu, log_softmax, where …)
    passes every intermediate value through such a pair; rewriting them away first leaves the operations' plain term.
-/
import Idealize.ShloMosaic.Lib.StableHlo.Run

namespace Idealize.ShloMosaic.StableHlo

variable {τ : Topo} {sig : RefSig} {Val : EltTy → Type}

/-- Running a list of operations in two parts. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Stored into a typed buffer and read back: the value. -/
theorem TRef.ofBuf_toBuf {T : BufTy} (x : TRef sig T) (v : T.Contents Val) : x.ofBuf (x.toBuf v) = v := by
  obtain ⟨r, h, _, _⟩ := x
  subst h
  rfl

end Idealize.ShloMosaic.StableHlo
-- ==== Proof.LibLogSoftmaxRows.lean ====
/-
  A logarithmic softmax along the rows of a matrix, read AT AN INDEX at the ideal values, for kernels and references that
  spell it the numerically careful way: subtract the row's maximum, exponentiate, sum along the row, take the logarithm and
  subtract it, with both reductions kept as a column (`keepdims`) and broadcast back along the row, and the maximum joined
  once more with a lower bound before it is used (jax's guard against a row that is all minus infinity).

  * `rowMax lo init row`: `max lo` of the fold of `max` from `init` over the row;
  * `logSoftmaxAt lo init row j`: the value — `row j − M − log (∑ c, exp (row c − M))` with `M = rowMax lo init row`;
  * `logSoftmaxRows_apply`: a kernel's whole chain over the rows of a rank-2 vector (multi_reduction ⟨maximumf⟩, maximum
    with a splat scalar, cast to a column, broadcast, subtract, exponentiate, multi_reduction ⟨add⟩, cast, logarithm,
    broadcast, subtract) at (r, j) is `logSoftmaxAt` of row r;
  * `hostRowMax2_apply`: the host's one-operand reduce with a `maximum` body over the second axis of a matrix, at a row,
    is the fold of `max` from the initial value's element;
  * `hostRowSum2_apply`: the host's float sum over the second axis of a matrix, at a row, is the initial value's element
    plus the sum along the row;
  * `hostLogSoftmaxRows_apply`: the reference's chain over a matrix (reduce-maximum, maximum with a vector of lower
    bounds, the two keepdims broadcasts, subtract, exponentiate, reduce-add from a zero, broadcast, logarithm, broadcast,
    subtract) at (i, j) is `logSoftmaxAt` of row i.

  Nothing here needs the entries to be finite: two sides that both spell the logarithmic softmax this way are the same
  function on the extended reals.
-/
import Idealize.ShloMosaic.PureOps.Ideal.Laws
import Idealize.ShloMosaic.Lib.Pipeline.Value
import Idealize.ShloMosaic.Lib.ValueIdx
import proofs.«101748_j6330781794350_2_alg».proof.Proof.LibKeepdims
import proofs.«101748_j6330781794350_2_alg».proof.Proof.LibSoftmaxRows
import proofs.«101748_j6330781794350_2_alg».proof.Proof.LibHostReads

noncomputable section

open scoped BigOperators

namespace Idealize.ShloMosaic.LogSoftmaxRows

open Idealize.ShloMosaic Idealize.ShloMosaic.ValueIdx

/-- A row's maximum as a fold of `max` from `init`, joined with the lower bound `lo`. -/
def rowMax {n : Nat} (lo init : EReal) (row : Fin n → EReal) : EReal :=
  max lo ((Finset.univ : Finset (Fin n)).fold max init row)

/-- The logarithmic softmax of one row at position `j`, the row's maximum subtracted first. -/
def logSoftmaxAt {n : Nat} (lo init : EReal) (row : Fin n → EReal) (j : Fin n) : EReal :=
  (row j - rowMax lo init row) - Ideal.log (∑ c : Fin n, Ideal.exp (row c - rowMax lo init row))

/-- The keepdims logarithmic-softmax chain of a kernel over the rows of `s`, at (r, j). -/
theorem logSoftmaxRows_apply {n0 n1 : Nat} (s : FVec Ideal ⟨2, ![n0, n1]⟩ .f32) (lo : Ideal .f32) (accM accS : BitVec 32)
    (hr : (⟨2, ![n0, n1]⟩ : Shape).Reduces [1] ⟨1, ![n0]⟩) (hc : (⟨1, ![n0]⟩ : Shape).ShapeCasts ⟨2, ![n0, 1]⟩)
    (hb : (⟨2, ![n0, 1]⟩ : Shape).Broadcasts ⟨2, ![n0, n1]⟩) (hφ : FKind.Formats .f32)
    (hM : accM = FKind.maximumf.neutral .f32 hφ) (hS : accS = FKind.add.neutral .f32 hφ) (r : Fin n0) (j : Fin n1) :
    subf (subf s (broadcastTo ⟨2, ![n0, n1]⟩ (shapeCast ⟨2, ![n0, 1]⟩ (maximumf (broadcast ⟨1, ![n0]⟩ lo) (multiReduction .maximumf [1] ⟨1, ![n0]⟩ s accM hr hφ hM)) hc) hb))
        (broadcastTo ⟨2, ![n0, n1]⟩ (log (shapeCast ⟨2, ![n0, 1]⟩ (multiReduction .add [1] ⟨1, ![n0]⟩
          (exp (subf s (broadcastTo ⟨2, ![n0, n1]⟩ (shapeCast ⟨2, ![n0, 1]⟩ (maximumf (broadcast ⟨1, ![n0]⟩ lo) (multiReduction .maximumf [1] ⟨1, ![n0]⟩ s accM hr hφ hM)) hc) hb)))
          accS hr hφ hS) hc)) hb) (ix2 r j)
      = logSoftmaxAt lo (Ideal.ofBits .f32 accM) (fun c => s (ix2 r c)) j := by
  have hmax : ∀ c : Fin n1, broadcastTo ⟨2, ![n0, n1]⟩ (shapeCast ⟨2, ![n0, 1]⟩ (maximumf (broadcast ⟨1, ![n0]⟩ lo) (multiReduction .maximumf [1] ⟨1, ![n0]⟩ s accM hr hφ hM)) hc) hb (ix2 r c)
      = rowMax lo (Ideal.ofBits .f32 accM) (fun c => s (ix2 r c)) := fun c =>
    (Keepdims.bcast_col_apply _ hb r c).trans ((Keepdims.cast_col_apply _ hc r 0).trans
      ((show maximumf (broadcast ⟨1, ![n0]⟩ lo) (multiReduction .maximumf [1] ⟨1, ![n0]⟩ s accM hr hφ hM) (ix1 r)
          = max lo (multiReduction .maximumf [1] ⟨1, ![n0]⟩ s accM hr hφ hM (ix1 r)) from rfl).trans
        (congrArg (max lo) (SoftmaxRows.rowMax2_apply s accM hr hφ hM r))))
  have hexp : ∀ c : Fin n1, exp (subf s (broadcastTo ⟨2, ![n0, n1]⟩ (shapeCast ⟨2, ![n0, 1]⟩ (maximumf (broadcast ⟨1, ![n0]⟩ lo) (multiReduction .maximumf [1] ⟨1, ![n0]⟩ s accM hr hφ hM)) hc) hb)) (ix2 r c)
      = Ideal.exp (s (ix2 r c) - rowMax lo (Ideal.ofBits .f32 accM) (fun c => s (ix2 r c))) := fun c =>
    congrArg (fun m => Ideal.exp (s (ix2 r c) - m)) (hmax c)
  have hlog : broadcastTo ⟨2, ![n0, n1]⟩ (log (shapeCast ⟨2, ![n0, 1]⟩ (multiReduction .add [1] ⟨1, ![n0]⟩
          (exp (subf s (broadcastTo ⟨2, ![n0, n1]⟩ (shapeCast ⟨2, ![n0, 1]⟩ (maximumf (broadcast ⟨1, ![n0]⟩ lo) (multiReduction .maximumf [1] ⟨1, ![n0]⟩ s accM hr hφ hM)) hc) hb)))
          accS hr hφ hS) hc)) hb (ix2 r j)
      = Ideal.log (∑ c : Fin n1, Ideal.exp (s (ix2 r c) - rowMax lo (Ideal.ofBits .f32 accM) (fun c => s (ix2 r c)))) :=
    (Keepdims.bcast_col_apply _ hb r j).trans (congrArg Ideal.log ((Keepdims.cast_col_apply _ hc r 0).trans
      ((Keepdims.rowSum2_apply _ accS hr hφ hS r).trans (Finset.sum_congr rfl fun c _ => hexp c))))
  have hsub : subf s (broadcastTo ⟨2, ![n0, n1]⟩ (shapeCast ⟨2, ![n0, 1]⟩ (maximumf (broadcast ⟨1, ![n0]⟩ lo) (multiReduction .maximumf [1] ⟨1, ![n0]⟩ s accM hr hφ hM)) hc) hb) (ix2 r j)
      = s (ix2 r j) - rowMax lo (Ideal.ofBits .f32 accM) (fun c => s (ix2 r c)) :=
    congrArg (fun m => s (ix2 r j) - m) (hmax j)
  unfold logSoftmaxAt
  exact congrArg₂ (fun a b : EReal => a - b) hsub hlog

/-- The host's reduce with a `maximum` body over the second axis of a matrix, at row i: the fold of `max` from the
    initial value's element over the column coordinate. -/
theorem hostRowMax2_apply {a b : Nat} {φ : FTy} {u : Shape} (x : (⟨2, ![a, b]⟩ : Shape).Idx → Ideal φ)
    (init : u.Idx → Ideal φ) (h' : (⟨2, ![a, b]⟩ : Shape).ReducesTo [1] ⟨1, ![a]⟩)
    (h : (⟨2, ![a, b]⟩ : Shape).Reduces [1] ⟨1, ![a]⟩) (hu : 0 < u.numel) (i : Fin a) :
    Host.reduce (FloatOps.maximumf (F := Ideal) (φ := φ)) x init h' hu (ix1 i)
      = (Finset.univ : Finset (Fin b)).fold max (init (Shape.Idx.first hu)) (fun c => x (ix2 i c)) :=
  (Host.reduce_eq_fold_single (FloatOps.maximumf (F := Ideal) (φ := φ)) x init h' h hu (ix1 i)).trans
    (Finset.fold_congr fun c _ => congrArg x (funext fun d => Fin.ext (by
      match d with | ⟨0, _⟩ => rfl | ⟨1, _⟩ => rfl)))

/-- The host's float sum over the second axis of a matrix, at row i: the initial value's element plus the sum along the row. -/
theorem hostRowSum2_apply {a b : Nat} {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduceAdd x init h' hu (ix1 i) = init (Shape.Idx.first hu) + ∑ c : Fin b, x (ix2 i c) :=
  HostReads.hostSum2_apply h' h x (init (Shape.Idx.first hu)) i

/-- The reference's logarithmic-softmax chain over the rows of the matrix `x`, at (i, j). -/
theorem hostLogSoftmaxRows_apply {a b : Nat} {u : Shape} (x : FVec Ideal ⟨2, ![a, b]⟩ .f32) (lo : FVec Ideal ⟨1, ![a]⟩ .f32)
    (initM initS : u.Idx → Ideal .f32)
    (h' : (⟨2, ![a, b]⟩ : Shape).ReducesTo [1] ⟨1, ![a]⟩) (h : (⟨2, ![a, b]⟩ : Shape).Reduces [1] ⟨1, ![a]⟩) (hu : 0 < u.numel)
    (hc : (⟨1, ![a]⟩ : Shape).BroadcastsInDim ⟨2, ![a, 1]⟩ ![0]) (hb : (⟨2, ![a, 1]⟩ : Shape).BroadcastsInDim ⟨2, ![a, b]⟩ ![0, 1])
    (hz : initS (Shape.Idx.first hu) = 0) (i : Fin a) (j : Fin b) :
    subf (subf x (broadcastInDim ⟨2, ![a, b]⟩ ![0, 1] hb (broadcastInDim ⟨2, ![a, 1]⟩ ![0] hc (maximumf lo (Host.reduce (FloatOps.maximumf (F := Ideal) (φ := .f32)) x initM h' hu)))))
        (broadcastInDim ⟨2, ![a, b]⟩ ![0, 1] hb (Host.log (broadcastInDim ⟨2, ![a, 1]⟩ ![0] hc (Host.reduceAdd
          (Host.exp (subf x (broadcastInDim ⟨2, ![a, b]⟩ ![0, 1] hb (broadcastInDim ⟨2, ![a, 1]⟩ ![0] hc (maximumf lo (Host.reduce (FloatOps.maximumf (F := Ideal) (φ := .f32)) x initM h' hu))))))
          initS h' hu)))) (ix2 i j)
      = logSoftmaxAt (lo (ix1 i)) (initM (Shape.Idx.first hu)) (fun c => x (ix2 i c)) j := by
  have hmax : ∀ c : Fin b, broadcastInDim ⟨2, ![a, b]⟩ ![0, 1] hb (broadcastInDim ⟨2, ![a, 1]⟩ ![0] hc (maximumf lo (Host.reduce (FloatOps.maximumf (F := Ideal) (φ := .f32)) x initM h' hu))) (ix2 i c)
      = rowMax (lo (ix1 i)) (initM (Shape.Idx.first hu)) (fun c => x (ix2 i c)) := fun c =>
    (HostReads.bcast_col_apply hb _ i c).trans ((HostReads.bcast_toCol_apply hc _ i 0).trans
      ((show maximumf lo (Host.reduce (FloatOps.maximumf (F := Ideal) (φ := .f32)) x initM h' hu) (ix1 i)
          = max (lo (ix1 i)) (Host.reduce (FloatOps.maximumf (F := Ideal) (φ := .f32)) x initM h' hu (ix1 i)) from rfl).trans
        (congrArg (max (lo (ix1 i))) (hostRowMax2_apply x initM h' h hu i))))
  have hexp : ∀ c : Fin b, Host.exp (subf x (broadcastInDim ⟨2, ![a, b]⟩ ![0, 1] hb (broadcastInDim ⟨2, ![a, 1]⟩ ![0] hc (maximumf lo (Host.reduce (FloatOps.maximumf (F := Ideal) (φ := .f32)) x initM h' hu))))) (ix2 i c)
      = Ideal.exp (x (ix2 i c) - rowMax (lo (ix1 i)) (initM (Shape.Idx.first hu)) (fun c => x (ix2 i c))) := fun c =>
    congrArg (fun m => Ideal.exp (x (ix2 i c) - m)) (hmax c)
  have hlog : broadcastInDim ⟨2, ![a, b]⟩ ![0, 1] hb (Host.log (broadcastInDim ⟨2, ![a, 1]⟩ ![0] hc (Host.reduceAdd
          (Host.exp (subf x (broadcastInDim ⟨2, ![a, b]⟩ ![0, 1] hb (broadcastInDim ⟨2, ![a, 1]⟩ ![0] hc (maximumf lo (Host.reduce (FloatOps.maximumf (F := Ideal) (φ := .f32)) x initM h' hu))))))
          initS h' hu))) (ix2 i j)
      = Ideal.log (∑ c : Fin b, Ideal.exp (x (ix2 i c) - rowMax (lo (ix1 i)) (initM (Shape.Idx.first hu)) (fun c => x (ix2 i c)))) :=
    (HostReads.bcast_col_apply hb _ i j).trans (congrArg Ideal.log ((HostReads.bcast_toCol_apply hc _ i 0).trans
      ((hostRowSum2_apply _ initS h' h hu i).trans
        ((congrArg (· + _) hz).trans ((zero_add _).trans (Finset.sum_congr rfl fun c _ => hexp c))))))
  have hsub : subf x (broadcastInDim ⟨2, ![a, b]⟩ ![0, 1] hb (broadcastInDim ⟨2, ![a, 1]⟩ ![0] hc (maximumf lo (Host.reduce (FloatOps.maximumf (F := Ideal) (φ := .f32)) x initM h' hu)))) (ix2 i j)
      = x (ix2 i j) - rowMax (lo (ix1 i)) (initM (Shape.Idx.first hu)) (fun c => x (ix2 i c)) :=
    congrArg (fun m => x (ix2 i j) - m) (hmax j)
  unfold logSoftmaxAt
  exact congrArg₂ (fun p q : EReal => p - q) hsub hlog

end Idealize.ShloMosaic.LogSoftmaxRows

end
-- ==== Proof.RefIsSpec.lean ====
/-
  The reference's result is the specification

  The reference computes, per segment, the count, the sum of the rows' largest logits, the three logit sums and the two
  label counts by five scatter-adds into zero vectors and one into a zero matrix, each of which is, at segment `s`, the
  zero pattern plus the sum over the rows whose segment word is `s`; it takes the row maximum as a fold of `max` from
  −∞; it spells the logistic function as `1 / (1 + exp (−a))`, which on the extended reals is the logistic function for
  every `a` once the pattern of 1.0 is read as 1; and it lays the two results side by side as the columns of the result.
-/
import proofs.«101748_j6330781794350_2_alg».proof.Proof.RefRead
import proofs.«101748_j6330781794350_2_alg».proof.Proof.Spec
import proofs.«101748_j6330781794350_2_alg».proof.Proof.LibSegmentOps
import proofs.«101748_j6330781794350_2_alg».proof.Proof.LibHostReads
import proofs.«101748_j6330781794350_2_alg».proof.Proof.LibLogSoftmaxRows
import Idealize.ShloMosaic.Lib.IdealHost

set_option maxRecDepth 16384

noncomputable section

open scoped BigOperators

namespace Cert.ReferenceIdeal.Bridge

open Cert.ReferenceIdeal Cert.ReferenceIdeal.Gen Cert.ReferenceIdeal.Read Cert.SegAgg
open Idealize.ShloMosaic Idealize.ShloMosaic.TcCoe Idealize.ShloMosaic.ValueIdx

variable (x0 : SX.Idx → EReal) (x1 x2 x3 : SW.Idx → BitVec 32)

/-- `1 / (1 + exp (−a))` with the pattern of 1.0 for both ones is the logistic function, at every extended real. -/
theorem logistic_spelled (a : EReal) : Ideal.div one (one + Ideal.exp (-a)) = Ideal.logistic a := by
  unfold one
  rw [Ideal.ofBits_one_f32]
  rfl

/-- The segment words laid out as a column, at row `e`. -/
theorem segCol_apply (w : SW.Idx → BitVec 32) (e : Fin 16777216) :
    broadcastInDim S16777216x1 ![0] bcast_S16777216_S16777216x1_0 w (ix2 e 0) = w (ix1 e) :=
  HostReads.bcast_toCol_apply _ w e 0

/-- A scatter-add of per-row values into a zero vector, at segment `s`. -/
theorem vecSum_apply (z : S262144.Idx → EReal) (hz : ∀ i, z i = zero) (w : SW.Idx → BitVec 32)
    (u : S16777216.Idx → EReal) (s : Fin 262144) :
    Host.scatterAdd (F := Ideal) (φ := .f32) scatter_S262144_S16777216x1_S16777216_n_0_0_1 z
        (broadcastInDim S16777216x1 ![0] bcast_S16777216_S16777216x1_0 w) u (ix1 s)
      = segSum w (fun e => u (ix1 e)) s := by
  unfold segSum rowsOf
  refine (SegmentOps.scatterAdd1_apply (φ := .f32) scatter_S262144_S16777216x1_S16777216_n_0_0_1_wf _ _ u s).trans ?_
  rw [hz]
  refine congrArg (zero + ·) (Finset.sum_congr (Finset.filter_congr fun e _ => ?_) fun _ _ => rfl)
  rw [segCol_apply]

/-- The count of segment `s`. -/
theorem count_apply (s : Fin 262144) : val_main_v3 (F := Ideal) x1 (ix1 s) = SegAgg.count x1 s := by
  unfold val_main_v3 val_main_v2 SegAgg.count
  rw [vecSum_apply _ (fun i => (val_main_v1_apply i).trans rfl)]
  exact congrArg (fun f => segSum x1 f s) (funext fun e => (val_main_v0_apply _).trans rfl)

/-- The largest logit of row `e`. -/
theorem rowMax_apply (e : Fin 16777216) : val_main_v6 (F := Ideal) x0 (ix1 e) = rowMax x0 e := by
  unfold val_main_v6 rowMax
  exact LogSoftmaxRows.hostRowMax2_apply x0 _ reducesTo_S16777216x3_S16777216_d1 (by decide) h_S_ e

/-- The sum of the largest logits over segment `s`. -/
theorem sumMax_apply (s : Fin 262144) : val_main_v9 (F := Ideal) x0 x1 (ix1 s) = segSum x1 (rowMax x0) s := by
  unfold val_main_v9 val_main_v8
  rw [vecSum_apply _ (fun i => (val_main_v7_apply i).trans rfl)]
  exact congrArg (fun f => segSum x1 f s) (funext fun e => rowMax_apply x0 e)

/-- The average maximum of segment `s`. -/
theorem avg_apply (s : Fin 262144) : val_main_v10 (F := Ideal) x0 x1 (ix1 s) = avgMax x0 x1 s := by
  rw [val_main_v10_apply, val_main_v5_apply, sumMax_apply, count_apply,
    show val_main_v4 (F := Ideal) (ix1 s) = one from (val_main_v4_apply _).trans rfl]
  rfl

/-- Logit sum `k` of segment `s`. -/
theorem colSum_apply (s : Fin 262144) (k : Fin 3) : val_main_v13 (F := Ideal) x0 x1 (ix2 s k) = colSum x0 x1 k s := by
  unfold val_main_v13 val_main_v12 colSum segSum rowsOf
  refine (SegmentOps.scatterAdd2_apply (φ := .f32) scatter_S262144x3_S16777216x1_S16777216x3_1_0_0_1_wf _ _ x0 s k).trans ?_
  rw [show val_main_v11 (F := Ideal) (ix2 s k) = zero from (val_main_v11_apply _).trans rfl]
  refine congrArg (zero + ·) (Finset.sum_congr (Finset.filter_congr fun e _ => ?_) fun _ _ => rfl)
  rw [segCol_apply]

/-- The number of rows of segment `s` (under the second segment words) whose label is 4, and whose label is 1. -/
theorem label4_apply (s : Fin 262144) : val_main_v19 (F := Ideal) x2 x3 (ix1 s) = labelCount x2 x3 4#32 s := by
  unfold val_main_v19 val_main_v18 labelCount
  rw [vecSum_apply _ (fun i => (val_main_v17_apply i).trans rfl)]
  refine congrArg (fun f => segSum x3 f s) (funext fun e => ?_)
  show val_main_v16 (F := Ideal) x2 (ix1 e) = _
  rw [val_main_v16_apply, val_main_v15_apply,
    show val_main_v14 (F := Ideal) (ix1 e) = 4#32 from (val_main_v14_apply _).trans rfl]
  rfl
theorem label1_apply (s : Fin 262144) : val_main_v25 (F := Ideal) x2 x3 (ix1 s) = labelCount x2 x3 1#32 s := by
  unfold val_main_v25 val_main_v24 labelCount
  rw [vecSum_apply _ (fun i => (val_main_v23_apply i).trans rfl)]
  refine congrArg (fun f => segSum x3 f s) (funext fun e => ?_)
  show val_main_v22 (F := Ideal) x2 (ix1 e) = _
  rw [val_main_v22_apply, val_main_v21_apply,
    show val_main_v20 (F := Ideal) (ix1 e) = 1#32 from (val_main_v20_apply _).trans rfl]
  rfl

/-- The label counts kept where the segment has fewer than six rows. -/
theorem kept4_apply (s : Fin 262144) :
    val_main_v28 (F := Ideal) x1 x2 x3 (ix1 s) = keptCount (SegAgg.count x1 s) (labelCount x2 x3 4#32 s) := by
  rw [val_main_v28_apply, val_main_v27_apply, count_apply, label4_apply, show val_main_v26 (F := Ideal) (ix1 s) = six from (val_main_v26_apply _).trans rfl,
    show val_main_call0_v1 (F := Ideal) (ix1 s) = zero from (val_main_call0_v1_apply _).trans rfl]
  rfl
theorem kept1_apply (s : Fin 262144) :
    val_main_v29 (F := Ideal) x1 x2 x3 (ix1 s) = keptCount (SegAgg.count x1 s) (labelCount x2 x3 1#32 s) := by
  rw [val_main_v29_apply, val_main_v27_apply, count_apply, label1_apply, show val_main_v26 (F := Ideal) (ix1 s) = six from (val_main_v26_apply _).trans rfl,
    show val_main_call1_v1 (F := Ideal) (ix1 s) = zero from (val_main_call1_v1_apply _).trans rfl]
  rfl

/-- The three columns of the logit sums, each sliced out and flattened. -/
theorem col0_apply (s : Fin 262144) : val_main_v31 (F := Ideal) x0 x1 (ix1 s) = colSum x0 x1 0 s := by
  rw [val_main_v31_apply, val_main_v30_apply, ← colSum_apply]
  refine congrArg _ (funext fun a => Fin.ext ?_)
  match a with
  | ⟨0, _⟩ => show s.val / 1 = s.val; omega
  | ⟨1, _⟩ => rfl
theorem col1_apply (s : Fin 262144) : val_main_v46 (F := Ideal) x0 x1 (ix1 s) = colSum x0 x1 1 s := by
  rw [val_main_v46_apply, val_main_v45_apply, ← colSum_apply]
  refine congrArg _ (funext fun a => Fin.ext ?_)
  match a with
  | ⟨0, _⟩ => show s.val / 1 = s.val; omega
  | ⟨1, _⟩ => rfl
theorem col2_apply (s : Fin 262144) : val_main_v48 (F := Ideal) x0 x1 (ix1 s) = colSum x0 x1 2 s := by
  rw [val_main_v48_apply, val_main_v47_apply, ← colSum_apply]
  refine congrArg _ (funext fun a => Fin.ext ?_)
  match a with
  | ⟨0, _⟩ => show s.val / 1 = s.val; omega
  | ⟨1, _⟩ => rfl

/-- The first result of segment `s`. -/
theorem first_apply (s : Fin 262144) : val_main_v44 (F := Ideal) x0 x1 x2 x3 (ix1 s)
    = first (SegAgg.count x1 s) (avgMax x0 x1 s) (colSum x0 x1 0 s) (labelCount x2 x3 1#32 s) := by
  rw [val_main_v44_apply, val_main_v42_apply, val_main_v40_apply, val_main_v39_apply, val_main_v38_apply,
    val_main_v36_apply, val_main_v33_apply, val_main_v32_apply, val_main_v35_apply,
    avg_apply, kept1_apply, col0_apply,
    show val_main_v43 (F := Ideal) (ix1 s) = one from (val_main_v43_apply _).trans rfl,
    show val_main_v41 (F := Ideal) (ix1 s) = one from (val_main_v41_apply _).trans rfl,
    show val_main_v37 (F := Ideal) (ix1 s) = ten from (val_main_v37_apply _).trans rfl,
    show val_main_v34 (F := Ideal) (ix1 s) = five from (val_main_v34_apply _).trans rfl]
  simp only [Ideal.hostDivf_def, Ideal.addf_def, Ideal.hostUnary_exp_def, Ideal.hostNegf_def, Ideal.negf_def,
    Ideal.mulf_def, Ideal.subf_def]
  unfold first squash
  exact logistic_spelled _

/-- The second result of segment `s`. -/
theorem second_apply (s : Fin 262144) : val_main_v62 (F := Ideal) x0 x1 x2 x3 (ix1 s)
    = second (SegAgg.count x1 s) (avgMax x0 x1 s) (colSum x0 x1 1 s) (colSum x0 x1 2 s) (labelCount x2 x3 4#32 s) := by
  rw [val_main_v62_apply, val_main_v60_apply, val_main_v58_apply, val_main_v57_apply, val_main_v56_apply,
    val_main_v54_apply, val_main_v51_apply, val_main_v49_apply, val_main_v50_apply, val_main_v53_apply,
    avg_apply, kept4_apply, col1_apply, col2_apply,
    show val_main_v61 (F := Ideal) (ix1 s) = one from (val_main_v61_apply _).trans rfl,
    show val_main_v59 (F := Ideal) (ix1 s) = one from (val_main_v59_apply _).trans rfl,
    show val_main_v55 (F := Ideal) (ix1 s) = ten from (val_main_v55_apply _).trans rfl,
    show val_main_v52 (F := Ideal) (ix1 s) = one from (val_main_v52_apply _).trans rfl]
  simp only [Ideal.hostDivf_def, Ideal.addf_def, Ideal.hostUnary_exp_def, Ideal.hostNegf_def, Ideal.negf_def,
    Ideal.mulf_def, Ideal.subf_def]
  unfold second squash
  exact logistic_spelled _

/-- A vector laid out as a column, at row `s`. -/
theorem outCol_apply (v : S262144.Idx → EReal) (s : Fin 262144) :
    broadcastInDim S262144x1 ![0] bcast_S262144_S262144x1_0 v (ix2 s 0) = v (ix1 s) :=
  HostReads.bcast_toCol_apply _ v s 0

/-- The two columns of the specification's result. -/
theorem agg_col0 (s : Fin 262144) : agg x0 x1 x2 x3 (ix2 s 0)
    = first (SegAgg.count x1 s) (avgMax x0 x1 s) (colSum x0 x1 0 s) (labelCount x2 x3 1#32 s) := by
  unfold agg
  exact if_pos rfl
theorem agg_col1 (s : Fin 262144) : agg x0 x1 x2 x3 (ix2 s 1)
    = second (SegAgg.count x1 s) (avgMax x0 x1 s) (colSum x0 x1 1 s) (colSum x0 x1 2 s) (labelCount x2 x3 4#32 s) := by
  unfold agg
  exact if_neg Nat.one_ne_zero

/-- The two columns of the reference's result: the join read at column 0 and at column 1. -/
theorem ref_col0 (s : Fin 262144) : val_main_v65 (F := Ideal) x0 x1 x2 x3 (ix2 s 0)
    = first (SegAgg.count x1 s) (avgMax x0 x1 s) (colSum x0 x1 0 s) (labelCount x2 x3 1#32 s) := by
  have hcat := concatenate_pair_apply_left (t := S262144x2) (s₁ := S262144x1) (s₂ := S262144x1) (1 : Fin 2)
    (val_main_v63 (F := Ideal) x0 x1 x2 x3) (val_main_v64 (F := Ideal) x0 x1 x2 x3)
    concatenates_S262144x1_S262144x1_S262144x2_d1 (ix2 s 0) rfl (ix2 s 0)
    (fun b => by match b with | ⟨0, _⟩ => rfl | ⟨1, _⟩ => rfl)
  have hcol : val_main_v63 (F := Ideal) x0 x1 x2 x3 (ix2 s 0) = val_main_v44 (F := Ideal) x0 x1 x2 x3 (ix1 s) := by
    unfold val_main_v63
    exact outCol_apply _ s
  unfold val_main_v65
  exact hcat.trans (hcol.trans (first_apply x0 x1 x2 x3 s))
theorem ref_col1 (s : Fin 262144) : val_main_v65 (F := Ideal) x0 x1 x2 x3 (ix2 s 1)
    = second (SegAgg.count x1 s) (avgMax x0 x1 s) (colSum x0 x1 1 s) (colSum x0 x1 2 s) (labelCount x2 x3 4#32 s) := by
  have hcat := concatenate_pair_apply_right (t := S262144x2) (s₁ := S262144x1) (s₂ := S262144x1) (1 : Fin 2)
    (val_main_v63 (F := Ideal) x0 x1 x2 x3) (val_main_v64 (F := Ideal) x0 x1 x2 x3)
    concatenates_S262144x1_S262144x1_S262144x2_d1 (ix2 s 1) rfl rfl (ix2 s 0)
    (fun b hb => by match b with | ⟨0, _⟩ => rfl | ⟨1, _⟩ => exact absurd rfl hb) rfl
  have hcol : val_main_v64 (F := Ideal) x0 x1 x2 x3 (ix2 s 0) = val_main_v62 (F := Ideal) x0 x1 x2 x3 (ix1 s) := by
    unfold val_main_v64
    exact outCol_apply _ s
  unfold val_main_v65
  exact hcat.trans (hcol.trans (second_apply x0 x1 x2 x3 s))

/-- The reference's result is the specification's function of the four arguments. -/
theorem ref_eq_agg : val_main_v65 (F := Ideal) x0 x1 x2 x3 = agg x0 x1 x2 x3 := by
  funext i
  obtain ⟨s, q, rfl⟩ : ∃ (s : Fin 262144) (q : Fin 2), i = ix2 s q := ⟨i 0, i 1, eq_ix2 i⟩
  match q with
  | ⟨0, _⟩ => exact (ref_col0 x0 x1 x2 x3 s).trans (agg_col0 x0 x1 x2 x3 s).symm
  | ⟨1, _⟩ => exact (ref_col1 x0 x1 x2 x3 s).trans (agg_col1 x0 x1 x2 x3 s).symm

end Cert.ReferenceIdeal.Bridge

end
-- ==== Proof.lean ====
/-
  Per-segment gated averages: a two-region kernel against its jnp reference, on the extended reals

  16777216 rows, each with three logits, a segment word, a label word and a second segment word, are reduced to 262144
  segments. The kernel does it in three stages: a pipelined pass over the rows that writes, per row, the pair (1, largest
  logit) and the pair of label indicators (label 4, label 1); three scatter-adds on the host that sum those pairs and the
  logits into the segments; and a pipelined pass over the segments that forms the average maximum, keeps the label counts
  of segments with fewer than six rows, and applies the logistic function to two affine expressions. The reference computes
  the same per-segment sums by six scatter-adds of vectors and a matrix, takes the row maximum on the host, spells the
  logistic function as 1 / (1 + exp (−a)) and joins its two result vectors as columns.

  Both are the one function `SegAgg.agg` of the four arguments (Proof/Spec.lean), index by index:
    kernel     Proof/KernelRun.lean (the run with the result named), FeatBlocks.lean and CombineBlocks.lean (what a block of each
               region's output holds), KernelValue.lean (blocks to whole arrays), KernelChain.lean (the boundary contents read
               back to the arguments), KernelIsSpec.lean (the resulting term is `agg`);
    reference  Proof/RefRun.lean and RefRead.lean (its run and its stages), RefIsSpec.lean (its last stage is `agg`).
  No law of arithmetic is needed beyond reading each scatter-add as a sum over a segment's rows: the two programs apply the
  same operations to the same sums in the same order, so the precondition (finite logits) is never opened. The ideal pass
  rewrote nothing, so `preserves` is `True`. The three frames are the generated ones (the reference's is its run with the
  result dropped).
-/
import proofs.«101748_j6330781794350_2_alg».proof.Defs
import proofs.«101748_j6330781794350_2_alg».proof.Proof.Gen.Kernel
import proofs.«101748_j6330781794350_2_alg».proof.Proof.Gen.Kernel.Skeleton
import proofs.«101748_j6330781794350_2_alg».proof.Proof.Gen.Kernel.Launch
import proofs.«101748_j6330781794350_2_alg».proof.Proof.Gen.Kernel.Points
import proofs.«101748_j6330781794350_2_alg».proof.Proof.Gen.Kernel.Frame
import proofs.«101748_j6330781794350_2_alg».proof.Proof.Gen.KernelIdeal
import proofs.«101748_j6330781794350_2_alg».proof.Proof.Gen.KernelIdeal.Skeleton
import proofs.«101748_j6330781794350_2_alg».proof.Proof.Gen.KernelIdeal.Launch
import proofs.«101748_j6330781794350_2_alg».proof.Proof.Gen.KernelIdeal.Points
import proofs.«101748_j6330781794350_2_alg».proof.Proof.Gen.KernelIdeal.Frame
import proofs.«101748_j6330781794350_2_alg».proof.Proof.Gen.ReferenceIdeal
import proofs.«101748_j6330781794350_2_alg».proof.Proof.Gen.Pre_finite_inputs
import proofs.«101748_j6330781794350_2_alg».proof.Proof.KernelIsSpec
import proofs.«101748_j6330781794350_2_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- At the ideal instance both programs end with the result at `SegAgg.agg` of the four arguments: the kernel by its run read back
    to the arguments, the reference by its run's last stage, and the arguments agree. -/
theorem algebraic : Cert.algebraic_KernelIdeal_ReferenceIdeal := by
  intro m ρ m' ρ' _ hagree
  refine ⟨fun c => Cert.SegAgg.agg (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Whole.value_eq_agg _ _ _ _), (h c).2⟩)
      (Cert.KernelIdeal.Whole.run m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v65_eq, Cert.ReferenceIdeal.Bridge.ref_eq_agg,
      (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
